-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S_ : Shape := ⟨0, ![]⟩

class Facts : Prop where
  bcast_S_S4x256x4096 : S_.BroadcastsInDim S4x256x4096 (![] : Fin 0 → Fin S4x256x4096.rank)
  reducesTo_S4x256x4096_S_d0_1_2 : S4x256x4096.ReducesTo [0, 1, 2] S_
  h_S_ : 0 < S_.numel
  bcast_S_S14336x4096 : S_.BroadcastsInDim S14336x4096 (![] : Fin 0 → Fin S14336x4096.rank)
  reducesTo_S14336x4096_S_d0_1 : S14336x4096.ReducesTo [0, 1] S_
  bcast_S_S14336x4 : S_.BroadcastsInDim S14336x4 (![] : Fin 0 → Fin S14336x4.rank)
  reducesTo_S14336x4_S_d0_1 : S14336x4.ReducesTo [0, 1] S_
  bcast_S_S4x4096 : S_.BroadcastsInDim S4x4096 (![] : Fin 0 → Fin S4x4096.rank)
  reducesTo_S4x4096_S_d0_1 : S4x4096.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S4096x4 : S_.BroadcastsInDim S4096x4 (![] : Fin 0 → Fin S4096x4.rank)
  reducesTo_S4096x4_S_d0_1 : S4096x4.ReducesTo [0, 1] S_
  bcast_S_S4x14336 : S_.BroadcastsInDim S4x14336 (![] : Fin 0 → Fin S4x14336.rank)
  reducesTo_S4x14336_S_d0_1 : S4x14336.ReducesTo [0, 1] S_

variable [Facts]

def fn_part2 {F : FTy → Type} [FloatOps F] (main_arg7 : FVec F S4096x14336 .f32) (main_arg8 : FVec F S4096x4 .f32) (main_arg9 : FVec F S4x14336 .f32) (main_v33 : IVec S_ 1) : IVec S_ 1 :=
  let main_v34 : FVec F S4096x14336 .f32 := Host.absf main_arg7
  let main_cst_12 : FVec F S_ .f32 := constant S_ .f32 0x7F800000#32
  let main_v35 : FVec F S4096x14336 .f32 := broadcastInDim S4096x14336 ![] bcast_S_S4096x14336 main_cst_12
  let main_v36 : IVec S4096x14336 1 := cmpf .olt main_v34 main_v35
  let main_c_13 : IVec S_ 1 := constantI S_ 1 1#1
  let main_v37 : IVec S_ 1 := (fun x v => Host.reduce IntOp.andi x v reducesTo_S4096x14336_S_d0_1 h_S_) main_v36 main_c_13
  let main_v38 : IVec S_ 1 := andi main_v33 main_v37
  let main_v39 : FVec F S4096x4 .f32 := Host.absf main_arg8
  let main_cst_14 : FVec F S_ .f32 := constant S_ .f32 0x7F800000#32
  let main_v40 : FVec F S4096x4 .f32 := broadcastInDim S4096x4 ![] bcast_S_S4096x4 main_cst_14
  let main_v41 : IVec S4096x4 1 := cmpf .olt main_v39 main_v40
  let main_c_15 : IVec S_ 1 := constantI S_ 1 1#1
  let main_v42 : IVec S_ 1 := (fun x v => Host.reduce IntOp.andi x v reducesTo_S4096x4_S_d0_1 h_S_) main_v41 main_c_15
  let main_v43 : IVec S_ 1 := andi main_v38 main_v42
  let main_v44 : FVec F S4x14336 .f32 := Host.absf main_arg9
  let main_cst_16 : FVec F S_ .f32 := constant S_ .f32 0x7F800000#32
  let main_v45 : FVec F S4x14336 .f32 := broadcastInDim S4x14336 ![] bcast_S_S4x14336 main_cst_16
  let main_v46 : IVec S4x14336 1 := cmpf .olt main_v44 main_v45
  let main_c_17 : IVec S_ 1 := constantI S_ 1 1#1
  let main_v47 : IVec S_ 1 := (fun x v => Host.reduce IntOp.andi x v reducesTo_S4x14336_S_d0_1 h_S_) main_v46 main_c_17
  let main_v48 : IVec S_ 1 := andi main_v43 main_v47
  main_v48

def fn_part1 {F : FTy → Type} [FloatOps F] (main_arg4 : FVec F S14336x4096 .f32) (main_arg5 : FVec F S14336x4 .f32) (main_arg6 : FVec F S4x4096 .f32) (main_arg7 : FVec F S4096x14336 .f32) (main_arg8 : FVec F S4096x4 .f32) (main_arg9 : FVec F S4x14336 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S14336x4096 .f32 := Host.absf main_arg4
  let main_cst_6 : FVec F S_ .f32 := constant S_ .f32 0x7F800000#32
  let main_v20 : FVec F S14336x4096 .f32 := broadcastInDim S14336x4096 ![] bcast_S_S14336x4096 main_cst_6
  let main_v21 : IVec S14336x4096 1 := cmpf .olt main_v19 main_v20
  let main_c_7 : IVec S_ 1 := constantI S_ 1 1#1
  let main_v22 : IVec S_ 1 := (fun x v => Host.reduce IntOp.andi x v reducesTo_S14336x4096_S_d0_1 h_S_) main_v21 main_c_7
  let main_v23 : IVec S_ 1 := andi main_v18 main_v22
  let main_v24 : FVec F S14336x4 .f32 := Host.absf main_arg5
  let main_cst_8 : FVec F S_ .f32 := constant S_ .f32 0x7F800000#32
  let main_v25 : FVec F S14336x4 .f32 := broadcastInDim S14336x4 ![] bcast_S_S14336x4 main_cst_8
  let main_v26 : IVec S14336x4 1 := cmpf .olt main_v24 main_v25
  let main_c_9 : IVec S_ 1 := constantI S_ 1 1#1
  let main_v27 : IVec S_ 1 := (fun x v => Host.reduce IntOp.andi x v reducesTo_S14336x4_S_d0_1 h_S_) main_v26 main_c_9
  let main_v28 : IVec S_ 1 := andi main_v23 main_v27
  let main_v29 : FVec F S4x4096 .f32 := Host.absf main_arg6
  let main_cst_10 : FVec F S_ .f32 := constant S_ .f32 0x7F800000#32
  let main_v30 : FVec F S4x4096 .f32 := broadcastInDim S4x4096 ![] bcast_S_S4x4096 main_cst_10
  let main_v31 : IVec S4x4096 1 := cmpf .olt main_v29 main_v30
  let main_c_11 : IVec S_ 1 := constantI S_ 1 1#1
  let main_v32 : IVec S_ 1 := (fun x v => Host.reduce IntOp.andi x v reducesTo_S4x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x256x4096 .f32) (main_arg1 : FVec F S14336x4096 .f32) (main_arg2 : FVec F S14336x4 .f32) (main_arg3 : FVec F S4x4096 .f32) (main_arg4 : FVec F S14336x4096 .f32) (main_arg5 : FVec F S14336x4 .f32) (main_arg6 : FVec F S4x4096 .f32) (main_arg7 : FVec F S4096x14336 .f32) (main_arg8 : FVec F S4096x4 .f32) (main_arg9 : FVec F S4x14336 .f32) : IVec S_ 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_c : IVec S_ 1 := constantI S_ 1 1#1
  let main_v3 : IVec S_ 1 := (fun x v => Host.reduce IntOp.andi x v reducesTo_S4x256x4096_S_d0_1_2 h_S_) main_v2 main_c
  let main_v4 : FVec F S14336x4096 .f32 := Host.absf main_arg1
  let main_cst_0 : FVec F S_ .f32 := constant S_ .f32 0x7F800000#32
  let main_v5 : FVec F S14336x4096 .f32 := broadcastInDim S14336x4096 ![] bcast_S_S14336x4096 main_cst_0
  let main_v6 : IVec S14336x4096 1 := cmpf .olt main_v4 main_v5
  let main_c_1 : IVec S_ 1 := constantI S_ 1 1#1
  let main_v7 : IVec S_ 1 := (fun x v => Host.reduce IntOp.andi x v reducesTo_S14336x4096_S_d0_1 h_S_) main_v6 main_c_1
  let main_v8 : IVec S_ 1 := andi main_v3 main_v7
  let main_v9 : FVec F S14336x4 .f32 := Host.absf main_arg2
  let main_cst_2 : FVec F S_ .f32 := constant S_ .f32 0x7F800000#32
  let main_v10 : FVec F S14336x4 .f32 := broadcastInDim S14336x4 ![] bcast_S_S14336x4 main_cst_2
  let main_v11 : IVec S14336x4 1 := cmpf .olt main_v9 main_v10
  let main_c_3 : IVec S_ 1 := constantI S_ 1 1#1
  let main_v12 : IVec S_ 1 := (fun x v => Host.reduce IntOp.andi x v reducesTo_S14336x4_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_v13 main_v16
-- ==== Kernel.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S1024x4096 : Shape := ⟨2, ![1024, 4096]⟩
abbrev S1024x14336 : Shape := ⟨2, ![1024, 14336]⟩
abbrev S256x4096 : Shape := ⟨2, ![256, 4096]⟩
abbrev S256x4 : Shape := ⟨2, ![256, 4]⟩
abbrev S1024x256 : Shape := ⟨2, ![1024, 256]⟩
abbrev S256x1 : Shape := ⟨2, ![256, 1]⟩
abbrev S1x4096 : Shape := ⟨2, ![1, 4096]⟩
abbrev S1024x512 : Shape := ⟨2, ![1024, 512]⟩
abbrev S2048x512 : Shape := ⟨2, ![2048, 512]⟩
abbrev S2048x4 : Shape := ⟨2, ![2048, 4]⟩
abbrev S4x512 : Shape := ⟨2, ![4, 512]⟩
abbrev S1024x2048 : Shape := ⟨2, ![1024, 2048]⟩
abbrev S2048x1 : Shape := ⟨2, ![2048, 1]⟩
abbrev S1x512 : Shape := ⟨2, ![1, 512]⟩

abbrev nBuf : Space → Nat
  | .hbm => 15
  | .vmem => 22
  | .smem => 0
  | _ => 0

abbrev bufTy : (tb : Table) → Fin (tcTables nBuf tb) → BufTy
  | .hbm, ⟨0, _⟩ => ⟨S4x256x4096, .f32⟩
  | .hbm, ⟨1, _⟩ => ⟨S14336x4096, .f32⟩
  | .hbm, ⟨2, _⟩ => ⟨S14336x4, .f32⟩
  | .hbm, ⟨3, _⟩ => ⟨S4x4096, .f32⟩
  | .hbm, ⟨4, _⟩ => ⟨S14336x4096, .f32⟩
  | .hbm, ⟨5, _⟩ => ⟨S14336x4, .f32⟩
  | .hbm, ⟨6, _⟩ => ⟨S4x4096, .f32⟩
  | .hbm, ⟨7, _⟩ => ⟨S4096x14336, .f32⟩
  | .hbm, ⟨8, _⟩ => ⟨S4096x4, .f32⟩
  | .hbm, ⟨9, _⟩ => ⟨S4x14336, .f32⟩
  | .hbm, ⟨10, _⟩ => ⟨S1024x4096, .f32⟩
  | .hbm, ⟨11, _⟩ => ⟨S1024x4096, .bf16⟩
  | .hbm, ⟨12, _⟩ => ⟨S1024x14336, .bf16⟩
  | .hbm, ⟨13, _⟩ => ⟨S1024x4096, .f32⟩
  | .hbm, ⟨14, _⟩ => ⟨S4x256x4096, .f32⟩
  | .local _ .vmem, ⟨0, _⟩ => ⟨S1024x4096, .bf16⟩
  | .local _ .vmem, ⟨1, _⟩ => ⟨S256x4096, .f32⟩
  | .local _ .vmem, ⟨2, _⟩ => ⟨S256x4096, .f32⟩
  | .local _ .vmem, ⟨3, _⟩ => ⟨S256x4, .f32⟩
  | .local _ .vmem, ⟨4, _⟩ => ⟨S256x4, .f32⟩
  | .local _ .vmem, ⟨5, _⟩ => ⟨S4x4096, .f32⟩
  | .local _ .vmem, ⟨6, _⟩ => ⟨S256x4096, .f32⟩
  | .local _ .vmem, ⟨7, _⟩ => ⟨S256x4096, .f32⟩
  | .local _ .vmem, ⟨8, _⟩ => ⟨S256x4, .f32⟩
  | .local _ .vmem, ⟨9, _⟩ => ⟨S256x4, .f32⟩
  | .local _ .vmem, ⟨10, _⟩ => ⟨S4x4096, .f32⟩
  | .local _ .vmem, ⟨11, _⟩ => ⟨S1024x256, .bf16⟩
  | .local _ .vmem, ⟨12, _⟩ => ⟨S1024x256, .bf16⟩
  | .local _ .vmem, ⟨13, _⟩ => ⟨S1024x512, .bf16⟩
  | .local _ .vmem, ⟨14, _⟩ => ⟨S1024x512, .bf16⟩
  | .local _ .vmem, ⟨15, _⟩ => ⟨S2048x512, .f32⟩
  | .local _ .vmem, ⟨16, _⟩ => ⟨S2048x512, .f32⟩
  | .local _ .vmem, ⟨17, _⟩ => ⟨S2048x4, .f32⟩
  | .local _ .vmem, ⟨18, _⟩ => ⟨S2048x4, .f32⟩
  | .local _ .vmem, ⟨19, _⟩ => ⟨S4x512, .f32⟩
  | .local _ .vmem, ⟨20, _⟩ => ⟨S4x512, .f32⟩
  | .local _ .vmem, ⟨21, _⟩ => ⟨S1024x2048, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 28], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1024x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  shapeCasts_S4x256x4096_S1024x4096 : S4x256x4096.ShapeCasts S1024x4096
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4_S256x4_0_0 : ∀ a, (![0, 0] : Fin 2 → Nat) a + S256x4.size a ≤ S256x4.size a
  h_S256x4 : 0 < S256x4.numel
  inb_S4x4096_S4x4096_0_0 : ∀ a, (![0, 0] : Fin 2 → Nat) a + S4x4096.size a ≤ S4x4096.size a
  h_S4x4096 : 0 < S4x4096.numel
  slices_S256x4_o0_0_S256x1 : S256x4.Slices ![0, 0] S256x1
  slices_S4x4096_o0_0_S1x4096 : S4x4096.Slices ![0, 0] S1x4096
  broadcasts_S256x1_S256x4096 : S256x1.Broadcasts S256x4096
  broadcasts_S1x4096_S256x4096 : S1x4096.Broadcasts S256x4096
  slices_S256x4_o0_1_S256x1 : S256x4.Slices ![0, 1] S256x1
  slices_S4x4096_o1_0_S1x4096 : S4x4096.Slices ![1, 0] S1x4096
  slices_S256x4_o0_2_S256x1 : S256x4.Slices ![0, 2] S256x1
  slices_S4x4096_o2_0_S1x4096 : S4x4096.Slices ![2, 0] S1x4096
  slices_S256x4_o0_3_S256x1 : S256x4.Slices ![0, 3] S256x1
  slices_S4x4096_o3_0_S1x4096 : S4x4096.Slices ![3, 0] S1x4096
  inb_S256x4096_S256x4096_0_0 : ∀ a, (![0, 0] : Fin 2 → Nat) a + S256x4096.size a ≤ S256x4096.size a
  h_S256x4096 : 0 < S256x4096.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x2048_S1024x2048_0_0 : ∀ a, (![0, 0] : Fin 2 → Nat) a + S1024x2048.size a ≤ S1024x2048.size a
  h_S1024x2048 : 0 < S1024x2048.numel
  inb_S2048x4_S2048x4_0_0 : ∀ a, (![0, 0] : Fin 2 → Nat) a + S2048x4.size a ≤ S2048x4.size a
  h_S2048x4 : 0 < S2048x4.numel
  inb_S4x512_S4x512_0_0 : ∀ a, (![0, 0] : Fin 2 → Nat) a + S4x512.size a ≤ S4x512.size a
  h_S4x512 : 0 < S4x512.numel
  slices_S2048x4_o0_0_S2048x1 : S2048x4.Slices ![0, 0] S2048x1
  slices_S4x512_o0_0_S1x512 : S4x512.Slices ![0, 0] S1x512
  broadcasts_S2048x1_S2048x512 : S2048x1.Broadcasts S2048x512
  broadcasts_S1x512_S2048x512 : S1x512.Broadcasts S2048x512
  slices_S2048x4_o0_1_S2048x1 : S2048x4.Slices ![0, 1] S2048x1
  slices_S4x512_o1_0_S1x512 : S4x512.Slices ![1, 0] S1x512
  slices_S2048x4_o0_2_S2048x1 : S2048x4.Slices ![0, 2] S2048x1
  slices_S4x512_o2_0_S1x512 : S4x512.Slices ![2, 0] S1x512
  slices_S2048x4_o0_3_S2048x1 : S2048x4.Slices ![0, 3] S2048x1
  slices_S4x512_o3_0_S1x512 : S4x512.Slices ![3, 0] S1x512
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x2048_S1024x2048 : S1024x2048.ShapeCasts S1024x2048
  shapeCasts_S1024x4096_S4x256x4096 : S1024x4096.ShapeCasts S4x256x4096
  dot_S1024x4096_S256x4096_S1024x256_1_1_0_0_n_n_wf : DotDims.WF S1024x4096 S256x4096 S1024x256 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .f32 = 32 ∨ (Rect.block (s := S14336x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S14336x4.size a
  hwx0_2 : ∀ i : grid0.Coords, EltTy.bits .f32 = 32 ∨ (Rect.block (s := S14336x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S14336x4096.size a
  hwx0_4 : ∀ i : grid0.Coords, EltTy.bits .f32 = 32 ∨ (Rect.block (s := S14336x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S14336x4.size a
  hwx0_5 : ∀ i : grid0.Coords, EltTy.bits .f32 = 32 ∨ (Rect.block (s := S14336x4) S256x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x4096.size a ≤ S4x4096.size a
  hwx0_6 : ∀ i : grid0.Coords, EltTy.bits .f32 = 32 ∨ (Rect.block (s := S4x4096) S4x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S1024x14336.size a
  hwx0_7 : ∀ i : grid0.Coords, EltTy.bits .bf16 = 32 ∨ (Rect.block (s := S1024x14336) S1024x256.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x14336.size a
  hwx1_0 : ∀ i : grid1.Coords, EltTy.bits .bf16 = 32 ∨ (Rect.block (s := S1024x14336) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x14336.size a
  hwx1_1 : ∀ i : grid1.Coords, EltTy.bits .f32 = 32 ∨ (Rect.block (s := S4096x14336) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S4096x4.size a
  hwx1_2 : ∀ i : grid1.Coords, EltTy.bits .f32 = 32 ∨ (Rect.block (s := S4096x4) S2048x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512.size a ≤ S4x14336.size a
  hwx1_3 : ∀ i : grid1.Coords, EltTy.bits .f32 = 32 ∨ (Rect.block (s := S4x14336) S4x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S1024x4096.size a
  hwx1_4 : ∀ i : grid1.Coords, EltTy.bits .f32 = 32 ∨ (Rect.block (s := S1024x4096) S1024x2048.size (cc1_transform_4 i) (hinb1_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S4x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x2048.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x256x4096 : Shape := ⟨3, ![4, 256, 4096]⟩
abbrev S14336x4096 : Shape := ⟨2, ![14336, 4096]⟩
abbrev S14336x4 : Shape := ⟨2, ![14336, 4]⟩
abbrev S4x4096 : Shape := ⟨2, ![4, 4096]⟩
abbrev S4096x14336 : Shape := ⟨2, ![4096, 14336]⟩
abbrev S4096x4 : Shape := ⟨2, ![4096, 4]⟩
abbrev S4x14336 : Shape := ⟨2, ![4, 14336]⟩
abbrev S4x256x14336 : Shape := ⟨3, ![4, 256, 14336]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S14336x4096, .f32⟩
  | .hbm, ⟨2, _⟩ => ⟨S14336x4, .f32⟩
  | .hbm, ⟨3, _⟩ => ⟨S4x4096, .f32⟩
  | .hbm, ⟨4, _⟩ => ⟨S14336x4096, .f32⟩
  | .hbm, ⟨5, _⟩ => ⟨S14336x4, .f32⟩
  | .hbm, ⟨6, _⟩ => ⟨S4x4096, .f32⟩
  | .hbm, ⟨7, _⟩ => ⟨S4096x14336, .f32⟩
  | .hbm, ⟨8, _⟩ => ⟨S4096x4, .f32⟩
  | .hbm, ⟨9, _⟩ => ⟨S4x14336, .f32⟩
  | .hbm, ⟨10, _⟩ => ⟨S14336x4096, .f32⟩
  | .hbm, ⟨11, _⟩ => ⟨S14336x4096, .f32⟩
  | .hbm, ⟨12, _⟩ => ⟨S4x256x14336, .f32⟩
  | .hbm, ⟨13, _⟩ => ⟨S14336x4096, .f32⟩
  | .hbm, ⟨14, _⟩ => ⟨S14336x4096, .f32⟩
  | .hbm, ⟨15, _⟩ => ⟨S4x256x14336, .f32⟩
  | .hbm, ⟨16, _⟩ => ⟨S4x256x14336, .f32⟩
  | .hbm, ⟨17, _⟩ => ⟨S4x256x14336, .f32⟩
  | .hbm, ⟨18, _⟩ => ⟨S_, .f32⟩
  | .hbm, ⟨19, _⟩ => ⟨S4x256x14336, .f32⟩
  | .hbm, ⟨20, _⟩ => ⟨S4x256x14336, .f32⟩
  | .hbm, ⟨21, _⟩ => ⟨S_, .f32⟩
  | .hbm, ⟨22, _⟩ => ⟨S4x256x14336, .f32⟩
  | .hbm, ⟨23, _⟩ => ⟨S4x256x14336, .f32⟩
  | .hbm, ⟨24, _⟩ => ⟨S4x256x14336, .f32⟩
  | .hbm, ⟨25, _⟩ => ⟨S4x256x14336, .f32⟩
  | .hbm, ⟨26, _⟩ => ⟨S4096x14336, .f32⟩
  | .hbm, ⟨27, _⟩ => ⟨S4096x14336, .f32⟩
  | .hbm, ⟨28, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]

class Facts₀ : Prop where
  bcast_S_S4x256x14336 : S_.BroadcastsInDim S4x256x14336 (![] : Fin 0 → Fin S4x256x14336.rank)
  dot_S14336x4_S4x4096_S14336x4096_1_0_0_1_n_n_wf : DotDims.WF S14336x4 S4x4096 S14336x4096 [1] [0] [0] [1] [] []
  dot_S4x256x4096_S14336x4096_S4x256x14336_2_1_01_0_n_n_wf : DotDims.WF S4x256x4096 S14336x4096 S4x256x14336 [2] [1] [0, 1] [0] [] []
  dot_S4096x4_S4x14336_S4096x14336_1_0_0_1_n_n_wf : DotDims.WF S4096x4 S4x14336 S4096x14336 [1] [0] [0] [1] [] []
  dot_S4x256x14336_S4096x14336_S4x256x4096_2_1_01_0_n_n_wf : DotDims.WF S4x256x14336 S4096x14336 S4x256x4096 [2] [1] [0, 1] [0] [] []

variable [Facts₀]

def dot_S14336x4_S4x4096_S14336x4096_1_0_0_1_n_n : DotDims S14336x4 S4x4096 S14336x4096 where
  lhsContracting := [1]
  rhsContracting := [0]
  lhsNonContracting := [0]
  rhsNonContracting := [1]
  lhsBatch := []
  rhsBatch := []
  wf := dot_S14336x4_S4x4096_S14336x4096_1_0_0_1_n_n_wf
def dot_S4x256x4096_S14336x4096_S4x256x14336_2_1_01_0_n_n : DotDims S4x256x4096 S14336x4096 S4x256x14336 where
  lhsContracting := [2]
  rhsContracting := [1]
  lhsNonContracting := [0, 1]
  rhsNonContracting := [0]
  lhsBatch := []
  rhsBatch := []
  wf := dot_S4x256x4096_S14336x4096_S4x256x14336_2_1_01_0_n_n_wf
def dot_S4096x4_S4x14336_S4096x14336_1_0_0_1_n_n : DotDims S4096x4 S4x14336 S4096x14336 where
  lhsContracting := [1]
  rhsContracting := [0]
  lhsNonContracting := [0]
  rhsNonContracting := [1]
  lhsBatch := []
  rhsBatch := []
  wf := dot_S4096x4_S4x14336_S4096x14336_1_0_0_1_n_n_wf
def dot_S4x256x14336_S4096x14336_S4x256x4096_2_1_01_0_n_n : DotDims S4x256x14336 S4096x14336 S4x256x4096 where
  lhsContracting := [2]
  rhsContracting := [1]
  lhsNonContracting := [0, 1]
  rhsNonContracting := [0]
  lhsBatch := []
  rhsBatch := []
  wf := dot_S4x256x14336_S4096x14336_S4x256x4096_2_1_01_0_n_n_wf

class Facts : Prop extends Facts₀ where

variable [Facts]
-- ==== Proof.Spec.lean ====
/-
  The mathematics both programs compute, on the extended reals, stated once over plain index types.

  A linear layer's effective weight is the stored weight times a rank-4 scale: W_eff[n, h] = w[n, h] * (su · sv)[n, h],
  with (su · sv)[n, h] the four products su[n, r] * sv[r, h] added up.  The layer sends a row x[p, ·] to
  sum over h of x[p, h] * W_eff[n, h] (`proj`).  The gated unit is silu(a) * b = a * logistic a * b of the gate and up
  projections (`hidden`), and the result is the down projection of the hidden rows (`mlp2`); the three-axis form
  (`mlp`) reads the rows of a [4, 256, 4096] array as 1024 rows, row 256 * b + s.

  A sum over 14336 = 28 * 512 terms taken block by block from zero (`accTo`) is the whole sum (`accTo_eq`,
  `accTo_clamp_last`): on the extended reals addition is commutative and associative, which is all that is used.
-/
import Idealize.ShloMosaic.PureOps.Ideal
import Idealize.ShloMosaic.Lib.ValueIdx

noncomputable section

namespace Cert.ScaledMlp

open Idealize.ShloMosaic Idealize.ShloMosaic.ValueIdx

/-- A two-axis array of extended reals. -/
abbrev Arr2 (R C : ℕ) : Type := (⟨2, ![R, C]⟩ : Shape).Idx → EReal
/-- A three-axis array of extended reals. -/
abbrev Arr3 (A B C : ℕ) : Type := (⟨3, ![A, B, C]⟩ : Shape).Idx → EReal

/-- The rank-4 scale (su · sv)[n, h]: its four products, added left to right. -/
def scale4 {N H : ℕ} (su : Arr2 N 4) (sv : Arr2 4 H) (n : Fin N) (h : Fin H) : EReal :=
  su (ix2 n 0) * sv (ix2 0 h) + su (ix2 n 1) * sv (ix2 1 h) + su (ix2 n 2) * sv (ix2 2 h) + su (ix2 n 3) * sv (ix2 3 h)

/-- The same scale as a sum over the rank index. -/
theorem scale4_eq_sum {N H : ℕ} (su : Arr2 N 4) (sv : Arr2 4 H) (n : Fin N) (h : Fin H) :
    scale4 su sv n h = ∑ r : Fin 4, su (ix2 n r) * sv (ix2 r h) := by
  rw [Fin.sum_univ_four]; rfl

/-- The effective weight W_eff[n, h] = w[n, h] * (su · sv)[n, h]. -/
def effW {N H : ℕ} (w : Arr2 N H) (su : Arr2 N 4) (sv : Arr2 4 H) (n : Fin N) (h : Fin H) : EReal :=
  w (ix2 n h) * scale4 su sv n h

/-- One output of the scaled linear layer: row p of x against row n of the effective weight. -/
def proj {P N H : ℕ} (x : Arr2 P H) (w : Arr2 N H) (su : Arr2 N 4) (sv : Arr2 4 H) (p : Fin P) (n : Fin N) : EReal :=
  ∑ h : Fin H, x (ix2 p h) * effW w su sv n h

/-- silu(a) * b, with silu(a) = a * logistic a. -/
def swiglu (a b : EReal) : EReal := a * Ideal.logistic a * b

/-- The hidden activation at row p, unit n: the gate and up projections through the gated unit. -/
def hidden {P N H : ℕ} (x : Arr2 P H) (gw : Arr2 N H) (gsu : Arr2 N 4) (gsv : Arr2 4 H)
    (uw : Arr2 N H) (usu : Arr2 N 4) (usv : Arr2 4 H) (p : Fin P) (n : Fin N) : EReal :=
  swiglu (proj x gw gsu gsv p n) (proj x uw usu usv p n)

/-- The hidden activations as a [P, N] array. -/
def hiddenArr {P N H : ℕ} (x : Arr2 P H) (gw : Arr2 N H) (gsu : Arr2 N 4) (gsv : Arr2 4 H)
    (uw : Arr2 N H) (usu : Arr2 N 4) (usv : Arr2 4 H) : Arr2 P N :=
  fun j => hidden x gw gsu gsv uw usu usv (j 0) (j 1)

/-- The whole unit on 1024 rows: the down projection of the hidden rows. -/
def mlp2 (x : Arr2 1024 4096) (gw : Arr2 14336 4096) (gsu : Arr2 14336 4) (gsv : Arr2 4 4096)
    (uw : Arr2 14336 4096) (usu : Arr2 14336 4) (usv : Arr2 4 4096)
    (dw : Arr2 4096 14336) (dsu : Arr2 4096 4) (dsv : Arr2 4 14336) : Arr2 1024 4096 :=
  fun i => proj (hiddenArr x gw gsu gsv uw usu usv) dw dsu dsv (i 0) (i 1)

/-- Row 256 * b + s of the flattened input. -/
def row (b : Fin 4) (s : Fin 256) : Fin 1024 := ⟨256 * b.val + s.val, by have := b.isLt; have := s.isLt; omega⟩

/-- A [4, 256, 4096] array read as 1024 rows. -/
def flat (x : Arr3 4 256 4096) : Arr2 1024 4096 :=
  fun i => x (ix3 ⟨(i 0).val / 256, by have : (i 0).val < 1024 := (i 0).isLt; omega⟩
    ⟨(i 0).val % 256, Nat.mod_lt _ (by decide)⟩ (i 1))

/-- 1024 rows read as a [4, 256, 4096] array. -/
def unflat (y : Arr2 1024 4096) : Arr3 4 256 4096 :=
  fun j => y (ix2 (row (j 0) (j 1)) (j 2))

theorem flat_row (x : Arr3 4 256 4096) (b : Fin 4) (s : Fin 256) (h : Fin 4096) :
    flat x (ix2 (row b s) h) = x (ix3 b s h) := by
  have hb := b.isLt; have hs := s.isLt
  unfold flat
  congr 1
  funext a
  match a with
  | ⟨0, _⟩ => exact Fin.ext (show (256 * b.val + s.val) / 256 = b.val by omega)
  | ⟨1, _⟩ => exact Fin.ext (show (256 * b.val + s.val) % 256 = s.val by omega)
  | ⟨2, _⟩ => rfl

/-- The whole unit on a [4, 256, 4096] input. -/
def mlp (x : Arr3 4 256 4096) (gw : Arr2 14336 4096) (gsu : Arr2 14336 4) (gsv : Arr2 4 4096)
    (uw : Arr2 14336 4096) (usu : Arr2 14336 4) (usv : Arr2 4 4096)
    (dw : Arr2 4096 14336) (dsu : Arr2 4096 4) (dsv : Arr2 4 14336) : Arr3 4 256 4096 :=
  unflat (mlp2 (flat x) gw gsu gsv uw usu usv dw dsu dsv)

/-! ## A sum taken block by block -/

/-- Block k of a sum: the B terms from B * k on. -/
def blockSum (f : ℕ → EReal) (B k : ℕ) : EReal := ∑ i : Fin B, f (B * k + i.val)

/-- The running total after block k, started from zero. -/
def accTo (f : ℕ → EReal) (B : ℕ) : ℕ → EReal
  | 0 => 0 + blockSum f B 0
  | k + 1 => accTo f B k + blockSum f B (k + 1)

theorem blockSum_eq_range (f : ℕ → EReal) (B k : ℕ) : blockSum f B k = ∑ i ∈ Finset.range B, f (B * k + i) := by
  unfold blockSum
  exact (Finset.sum_range (fun i => f (B * k + i))).symm

/-- The running total after block k is the sum of the first B * (k + 1) terms. -/
theorem accTo_eq (f : ℕ → EReal) (B : ℕ) : ∀ k : ℕ, accTo f B k = ∑ j ∈ Finset.range (B * (k + 1)), f j
  | 0 => by
    rw [accTo, zero_add, blockSum_eq_range]
    simp only [Nat.mul_zero, Nat.zero_add, Nat.mul_one]
  | k + 1 => by
    rw [accTo, accTo_eq f B k, blockSum_eq_range, show B * (k + 1 + 1) = B * (k + 1) + B by ring, Finset.sum_range_add]

/-- A function on `Fin N` continued by zero to every natural number. -/
def clamp {N : ℕ} (g : Fin N → EReal) : ℕ → EReal := fun j => if h : j < N then g ⟨j, h⟩ else 0

theorem clamp_of_lt {N : ℕ} (g : Fin N → EReal) (j : ℕ) (h : j < N) : clamp g j = g ⟨j, h⟩ := dif_pos h

theorem sum_range_clamp {N : ℕ} (g : Fin N → EReal) : ∑ j ∈ Finset.range N, clamp g j = ∑ j : Fin N, g j := by
  rw [Finset.sum_range]
  exact Finset.sum_congr rfl fun j _ => clamp_of_lt g j.val j.isLt

/-- 28 blocks of 512 make the whole sum over 14336 terms. -/
theorem accTo_clamp_last (g : Fin 14336 → EReal) : accTo (clamp g) 512 27 = ∑ j : Fin 14336, g j := by
  rw [accTo_eq, ← sum_range_clamp]

end Cert.ScaledMlp

end
-- ==== Proof.RefIsSpec.lean ====
/-
  The reference program's result, read index by index, is the specification.

  The reference computes, for each of the three linear layers, the rank-4 scale as a matrix product over the rank
  index, the effective weight as the stored weight times that scale, and the layer's output as a matrix product over
  the input features.  The gate output goes through a * (1 / (1 + exp (-a))), which on the extended reals is
  a * logistic a, and is multiplied by the up output; the down layer contracts the 14336 hidden units.  Read at the
  index (b, s, q) each stage is the specification's term at row 256 * b + s.
-/
import proofs.«112015_j57269093925327_2_alg».proof.Proof.Gen.ReferenceIdeal.Read
import proofs.«112015_j57269093925327_2_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ScaledMlp

/-! ## Where each matrix product reads its operands -/

theorem lidx_v0 (n : Fin 14336) (h : Fin 4096) (k : Fin 4) : Read.lidx_main_v0 (ix2 n h) k = ix2 n k :=
  funext fun a => match a with | ⟨0, _⟩ => rfl | ⟨1, _⟩ => rfl
theorem ridx_v0 (n : Fin 14336) (h : Fin 4096) (k : Fin 4) : Read.ridx_main_v0 (ix2 n h) k = ix2 k h :=
  funext fun a => match a with | ⟨0, _⟩ => rfl | ⟨1, _⟩ => rfl
theorem lidx_v3 (n : Fin 14336) (h : Fin 4096) (k : Fin 4) : Read.lidx_main_v3 (ix2 n h) k = ix2 n k :=
  funext fun a => match a with | ⟨0, _⟩ => rfl | ⟨1, _⟩ => rfl
theorem ridx_v3 (n : Fin 14336) (h : Fin 4096) (k : Fin 4) : Read.ridx_main_v3 (ix2 n h) k = ix2 k h :=
  funext fun a => match a with | ⟨0, _⟩ => rfl | ⟨1, _⟩ => rfl
theorem lidx_v8 (q : Fin 4096) (n : Fin 14336) (k : Fin 4) : Read.lidx_main_v8 (ix2 q n) k = ix2 q k :=
  funext fun a => match a with | ⟨0, _⟩ => rfl | ⟨1, _⟩ => rfl
theorem ridx_v8 (q : Fin 4096) (n : Fin 14336) (k : Fin 4) : Read.ridx_main_v8 (ix2 q n) k = ix2 k n :=
  funext fun a => match a with | ⟨0, _⟩ => rfl | ⟨1, _⟩ => rfl
theorem lidx_v2 (b : Fin 4) (s : Fin 256) (n : Fin 14336) (k : Fin 4096) : Read.lidx_main_v2 (ix3 b s n) k = ix3 b s k :=
  funext fun a => match a with | ⟨0, _⟩ => rfl | ⟨1, _⟩ => rfl | ⟨2, _⟩ => rfl
theorem ridx_v2 (b : Fin 4) (s : Fin 256) (n : Fin 14336) (k : Fin 4096) : Read.ridx_main_v2 (ix3 b s n) k = ix2 n k :=
  funext fun a => match a with | ⟨0, _⟩ => rfl | ⟨1, _⟩ => rfl
theorem lidx_v5 (b : Fin 4) (s : Fin 256) (n : Fin 14336) (k : Fin 4096) : Read.lidx_main_v5 (ix3 b s n) k = ix3 b s k :=
  funext fun a => match a with | ⟨0, _⟩ => rfl | ⟨1, _⟩ => rfl | ⟨2, _⟩ => rfl
theorem ridx_v5 (b : Fin 4) (s : Fin 256) (n : Fin 14336) (k : Fin 4096) : Read.ridx_main_v5 (ix3 b s n) k = ix2 n k :=
  funext fun a => match a with | ⟨0, _⟩ => rfl | ⟨1, _⟩ => rfl
theorem lidx_v10 (b : Fin 4) (s : Fin 256) (q : Fin 4096) (k : Fin 14336) : Read.lidx_main_v10 (ix3 b s q) k = ix3 b s k :=
  funext fun a => match a with | ⟨0, _⟩ => rfl | ⟨1, _⟩ => rfl | ⟨2, _⟩ => rfl
theorem ridx_v10 (b : Fin 4) (s : Fin 256) (q : Fin 4096) (k : Fin 14336) : Read.ridx_main_v10 (ix3 b s q) k = ix2 q k :=
  funext fun a => match a with | ⟨0, _⟩ => rfl | ⟨1, _⟩ => rfl

/-! ## The effective weights -/

/-- The gate layer's effective weight: the stored weight times the sum over the rank index. -/
theorem gate_weight (x1 : (⟨S14336x4096, .f32⟩ : BufTy).Contents (Elt Ideal)) (x2 : (⟨S14336x4, .f32⟩ : BufTy).Contents (Elt Ideal))
    (x3 : (⟨S4x4096, .f32⟩ : BufTy).Contents (Elt Ideal)) (n : Fin 14336) (h : Fin 4096) :
    Read.val_main_v1 (F := Ideal) x1 x2 x3 (ix2 n h) = effW x1 x2 x3 n h := by
  rw [Read.val_main_v1_apply, Read.val_main_v0_apply]
  unfold effW
  rw [scale4_eq_sum]
  refine congrArg (fun t : EReal => (x1 (ix2 n h) : EReal) * t) (Finset.sum_congr rfl fun k _ => ?_)
  rw [lidx_v0, ridx_v0]

/-- The up layer's effective weight. -/
theorem up_weight (x4 : (⟨S14336x4096, .f32⟩ : BufTy).Contents (Elt Ideal)) (x5 : (⟨S14336x4, .f32⟩ : BufTy).Contents (Elt Ideal))
    (x6 : (⟨S4x4096, .f32⟩ : BufTy).Contents (Elt Ideal)) (n : Fin 14336) (h : Fin 4096) :
    Read.val_main_v4 (F := Ideal) x4 x5 x6 (ix2 n h) = effW x4 x5 x6 n h := by
  rw [Read.val_main_v4_apply, Read.val_main_v3_apply]
  unfold effW
  rw [scale4_eq_sum]
  refine congrArg (fun t : EReal => (x4 (ix2 n h) : EReal) * t) (Finset.sum_congr rfl fun k _ => ?_)
  rw [lidx_v3, ridx_v3]

/-- The down layer's effective weight. -/
theorem down_weight (x7 : (⟨S4096x14336, .f32⟩ : BufTy).Contents (Elt Ideal)) (x8 : (⟨S4096x4, .f32⟩ : BufTy).Contents (Elt Ideal))
    (x9 : (⟨S4x14336, .f32⟩ : BufTy).Contents (Elt Ideal)) (q : Fin 4096) (n : Fin 14336) :
    Read.val_main_v9 (F := Ideal) x7 x8 x9 (ix2 q n) = effW x7 x8 x9 q n := by
  rw [Read.val_main_v9_apply, Read.val_main_v8_apply]
  unfold effW
  rw [scale4_eq_sum]
  refine congrArg (fun t : EReal => (x7 (ix2 q n) : EReal) * t) (Finset.sum_congr rfl fun k _ => ?_)
  rw [lidx_v8, ridx_v8]

/-! ## The gate and up projections -/

/-- The gate projection at (b, s, n): row 256 * b + s of the input against row n of the effective weight. -/
theorem gate_proj (x0 : (⟨S4x256x4096, .f32⟩ : BufTy).Contents (Elt Ideal)) (x1 : (⟨S14336x4096, .f32⟩ : BufTy).Contents (Elt Ideal)) (x2 : (⟨S14336x4, .f32⟩ : BufTy).Contents (Elt Ideal))
    (x3 : (⟨S4x4096, .f32⟩ : BufTy).Contents (Elt Ideal)) (b : Fin 4) (s : Fin 256) (n : Fin 14336) :
    Read.val_main_v2 (F := Ideal) x0 x1 x2 x3 (ix3 b s n) = proj (flat x0) x1 x2 x3 (row b s) n := by
  rw [Read.val_main_v2_apply]
  unfold proj
  refine Finset.sum_congr rfl fun k _ => ?_
  rw [lidx_v2, ridx_v2, gate_weight, flat_row]

/-- The up projection at (b, s, n). -/
theorem up_proj (x0 : (⟨S4x256x4096, .f32⟩ : BufTy).Contents (Elt Ideal)) (x4 : (⟨S14336x4096, .f32⟩ : BufTy).Contents (Elt Ideal)) (x5 : (⟨S14336x4, .f32⟩ : BufTy).Contents (Elt Ideal))
    (x6 : (⟨S4x4096, .f32⟩ : BufTy).Contents (Elt Ideal)) (b : Fin 4) (s : Fin 256) (n : Fin 14336) :
    Read.val_main_v5 (F := Ideal) x0 x4 x5 x6 (ix3 b s n) = proj (flat x0) x4 x5 x6 (row b s) n := by
  rw [Read.val_main_v5_apply]
  unfold proj
  refine Finset.sum_congr rfl fun k _ => ?_
  rw [lidx_v5, ridx_v5, up_weight, flat_row]

/-! ## The gated unit -/

/-- a * (1 / (1 + exp (-a))) * b, with the constant one given by its bit pattern, is silu(a) * b. -/
theorem silu_mul (a b : Ideal .f32) :
    FloatOps.mulf (FloatOps.mulf a (FloatOps.hostDivf (FloatOps.ofBits .f32 0x3F800000#32)
      (FloatOps.addf (FloatOps.ofBits .f32 0x3F800000#32) (FloatOps.hostUnary .exp (FloatOps.hostNegf a))))) b
      = swiglu a b := by
  rw [show (FloatOps.ofBits .f32 0x3F800000#32 : Ideal .f32) = 1 from Ideal.ofBits_one_f32]
  rfl

/-- The hidden activation at (b, s, n). -/
theorem hidden_eq (x0 : (⟨S4x256x4096, .f32⟩ : BufTy).Contents (Elt Ideal)) (x1 : (⟨S14336x4096, .f32⟩ : BufTy).Contents (Elt Ideal)) (x2 : (⟨S14336x4, .f32⟩ : BufTy).Contents (Elt Ideal))
    (x3 : (⟨S4x4096, .f32⟩ : BufTy).Contents (Elt Ideal)) (x4 : (⟨S14336x4096, .f32⟩ : BufTy).Contents (Elt Ideal)) (x5 : (⟨S14336x4, .f32⟩ : BufTy).Contents (Elt Ideal)) (x6 : (⟨S4x4096, .f32⟩ : BufTy).Contents (Elt Ideal))
    (b : Fin 4) (s : Fin 256) (n : Fin 14336) :
    Read.val_main_v7 (F := Ideal) x0 x1 x2 x3 x4 x5 x6 (ix3 b s n)
      = hidden (flat x0) x1 x2 x3 x4 x5 x6 (row b s) n := by
  rw [Read.val_main_v7_apply, Read.val_main_v6_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, gate_proj, up_proj]
  exact silu_mul _ _

/-! ## The result -/

/-- The reference's result at (b, s, q) is the specification's. -/
theorem ref_apply (x0 : (⟨S4x256x4096, .f32⟩ : BufTy).Contents (Elt Ideal)) (x1 : (⟨S14336x4096, .f32⟩ : BufTy).Contents (Elt Ideal)) (x2 : (⟨S14336x4, .f32⟩ : BufTy).Contents (Elt Ideal))
    (x3 : (⟨S4x4096, .f32⟩ : BufTy).Contents (Elt Ideal)) (x4 : (⟨S14336x4096, .f32⟩ : BufTy).Contents (Elt Ideal)) (x5 : (⟨S14336x4, .f32⟩ : BufTy).Contents (Elt Ideal)) (x6 : (⟨S4x4096, .f32⟩ : BufTy).Contents (Elt Ideal))
    (x7 : (⟨S4096x14336, .f32⟩ : BufTy).Contents (Elt Ideal)) (x8 : (⟨S4096x4, .f32⟩ : BufTy).Contents (Elt Ideal)) (x9 : (⟨S4x14336, .f32⟩ : BufTy).Contents (Elt Ideal))
    (b : Fin 4) (s : Fin 256) (q : Fin 4096) :
    Read.val_main_v10 (F := Ideal) x0 x1 x2 x3 x4 x5 x6 x7 x8 x9 (ix3 b s q)
      = mlp x0 x1 x2 x3 x4 x5 x6 x7 x8 x9 (ix3 b s q) := by
  rw [Read.val_main_v10_apply]
  show _ = proj (hiddenArr (flat x0) x1 x2 x3 x4 x5 x6) x7 x8 x9 (row b s) q
  unfold proj
  refine Finset.sum_congr rfl fun k _ => ?_
  rw [lidx_v10, ridx_v10, hidden_eq, down_weight]
  rfl

/-- The reference's result is the specification. -/
theorem ref_eq (x0 : (⟨S4x256x4096, .f32⟩ : BufTy).Contents (Elt Ideal)) (x1 : (⟨S14336x4096, .f32⟩ : BufTy).Contents (Elt Ideal)) (x2 : (⟨S14336x4, .f32⟩ : BufTy).Contents (Elt Ideal))
    (x3 : (⟨S4x4096, .f32⟩ : BufTy).Contents (Elt Ideal)) (x4 : (⟨S14336x4096, .f32⟩ : BufTy).Contents (Elt Ideal)) (x5 : (⟨S14336x4, .f32⟩ : BufTy).Contents (Elt Ideal)) (x6 : (⟨S4x4096, .f32⟩ : BufTy).Contents (Elt Ideal))
    (x7 : (⟨S4096x14336, .f32⟩ : BufTy).Contents (Elt Ideal)) (x8 : (⟨S4096x4, .f32⟩ : BufTy).Contents (Elt Ideal)) (x9 : (⟨S4x14336, .f32⟩ : BufTy).Contents (Elt Ideal)) :
    Read.val_main_v10 (F := Ideal) x0 x1 x2 x3 x4 x5 x6 x7 x8 x9 = mlp x0 x1 x2 x3 x4 x5 x6 x7 x8 x9 := by
  funext i
  obtain ⟨b, s, q, rfl⟩ : ∃ (b : Fin 4) (s : Fin 256) (q : Fin 4096), i = ix3 b s q := ⟨i 0, i 1, i 2, eq_ix3 i⟩
  exact ref_apply x0 x1 x2 x3 x4 x5 x6 x7 x8 x9 b s q

end Cert.ReferenceIdeal.RefValue

end
-- ==== Proof.KernelRun.lean ====
/-
  The kernel program's run, with its result buffer named.  The program is two pallas regions between two stretches of
  host operations; the buffer contents at the four boundaries are the fold `W0 … W4` of the generated frame.  Every
  weakly fair execution ends with each unscoped buffer at the last boundary's contents, in particular the result
  buffer: this module states that one more fact beside the unchanged arguments.
-/
import proofs.«112015_j57269093925327_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents and
    the ten arguments end as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.SpecBlocks.lean ====
/-
  Blocks of the arrays against the whole arrays.  An effective weight, a projection and a hidden activation depend on
  their arrays only through one row of each (and all of sv), so computed on a block that is a restriction of the whole
  array they are the whole array's at the shifted index (`effW_congr`, `proj_congr`, `hidden_congr`).  One step of the
  down projection over a block of 512 hidden units is block k of the whole sum over 14336 units (`step_eq_blockSum`).
-/
import proofs.«112015_j57269093925327_2_alg».proof.Proof.Spec

noncomputable section

namespace Cert.ScaledMlp

open Idealize.ShloMosaic Idealize.ShloMosaic.ValueIdx

theorem effW_congr {N H N' H' : ℕ} (w : Arr2 N H) (su : Arr2 N 4) (sv : Arr2 4 H) (w' : Arr2 N' H') (su' : Arr2 N' 4) (sv' : Arr2 4 H')
    (n : Fin N) (h : Fin H) (n' : Fin N') (h' : Fin H')
    (hw : w (ix2 n h) = w' (ix2 n' h')) (hsu : ∀ r : Fin 4, su (ix2 n r) = su' (ix2 n' r))
    (hsv : ∀ r : Fin 4, sv (ix2 r h) = sv' (ix2 r h')) :
    effW w su sv n h = effW w' su' sv' n' h' := by
  unfold effW scale4
  rw [hw, hsu 0, hsu 1, hsu 2, hsu 3, hsv 0, hsv 1, hsv 2, hsv 3]

theorem proj_congr {P N H P' N' : ℕ} (x : Arr2 P H) (w : Arr2 N H) (su : Arr2 N 4) (sv : Arr2 4 H)
    (x' : Arr2 P' H) (w' : Arr2 N' H) (su' : Arr2 N' 4) (sv' : Arr2 4 H) (p : Fin P) (n : Fin N) (p' : Fin P') (n' : Fin N')
    (hx : ∀ h : Fin H, x (ix2 p h) = x' (ix2 p' h)) (hw : ∀ h : Fin H, w (ix2 n h) = w' (ix2 n' h))
    (hsu : ∀ r : Fin 4, su (ix2 n r) = su' (ix2 n' r)) (hsv : ∀ (r : Fin 4) (h : Fin H), sv (ix2 r h) = sv' (ix2 r h)) :
    proj x w su sv p n = proj x' w' su' sv' p' n' := by
  unfold proj
  refine Finset.sum_congr rfl fun h _ => ?_
  rw [hx h, effW_congr w su sv w' su' sv' n h n' h (hw h) hsu (fun r => hsv r h)]

theorem hidden_congr {P N H P' N' : ℕ} (x : Arr2 P H) (gw : Arr2 N H) (gsu : Arr2 N 4) (gsv : Arr2 4 H)
    (uw : Arr2 N H) (usu : Arr2 N 4) (usv : Arr2 4 H)
    (x' : Arr2 P' H) (gw' : Arr2 N' H) (gsu' : Arr2 N' 4) (gsv' : Arr2 4 H) (uw' : Arr2 N' H) (usu' : Arr2 N' 4) (usv' : Arr2 4 H)
    (p : Fin P) (n : Fin N) (p' : Fin P') (n' : Fin N')
    (hx : ∀ h : Fin H, x (ix2 p h) = x' (ix2 p' h))
    (hgw : ∀ h : Fin H, gw (ix2 n h) = gw' (ix2 n' h)) (hgsu : ∀ r : Fin 4, gsu (ix2 n r) = gsu' (ix2 n' r))
    (hgsv : ∀ (r : Fin 4) (h : Fin H), gsv (ix2 r h) = gsv' (ix2 r h))
    (huw : ∀ h : Fin H, uw (ix2 n h) = uw' (ix2 n' h)) (husu : ∀ r : Fin 4, usu (ix2 n r) = usu' (ix2 n' r))
    (husv : ∀ (r : Fin 4) (h : Fin H), usv (ix2 r h) = usv' (ix2 r h)) :
    hidden x gw gsu gsv uw usu usv p n = hidden x' gw' gsu' gsv' uw' usu' usv' p' n' := by
  unfold hidden
  rw [proj_congr x gw gsu gsv x' gw' gsu' gsv' p n p' n' hx hgw hgsu hgsv,
    proj_congr x uw usu usv x' uw' usu' usv' p n p' n' hx huw husu husv]

/-- The terms of one output of the down projection, as a function of the hidden unit's number. -/
def downTerm (d : Arr2 1024 14336) (dw : Arr2 4096 14336) (dsu : Arr2 4096 4) (dsv : Arr2 4 14336) (p : Fin 1024) (n : Fin 4096) :
    Fin 14336 → EReal := fun j => d (ix2 p j) * effW dw dsu dsv n j

theorem proj_eq_sum_downTerm (d : Arr2 1024 14336) (dw : Arr2 4096 14336) (dsu : Arr2 4096 4) (dsv : Arr2 4 14336) (p : Fin 1024) (n : Fin 4096) :
    proj d dw dsu dsv p n = ∑ j : Fin 14336, downTerm d dw dsu dsv p n j := rfl

/-- Hidden unit 512 * k + i, for a block k of the 28 and a place i in it. -/
def unitOf (k : Fin 28) (i : Fin 512) : Fin 14336 := ⟨512 * k.val + i.val, by have := k.isLt; have := i.isLt; omega⟩

/-- One step over a block of 512 hidden units whose arrays are the restrictions of the whole arrays to block k is block k of
    the whole sum. -/
theorem step_eq_blockSum (d : Arr2 1024 14336) (dw : Arr2 4096 14336) (dsu : Arr2 4096 4) (dsv : Arr2 4 14336)
    (db : Arr2 1024 512) (dwb : Arr2 2048 512) (dsub : Arr2 2048 4) (dsvb : Arr2 4 512)
    (p : Fin 1024) (q : Fin 2048) (n : Fin 4096) (k : Fin 28)
    (hd : ∀ i : Fin 512, db (ix2 p i) = d (ix2 p (unitOf k i)))
    (hw : ∀ i : Fin 512, dwb (ix2 q i) = dw (ix2 n (unitOf k i)))
    (hsu : ∀ r : Fin 4, dsub (ix2 q r) = dsu (ix2 n r))
    (hsv : ∀ (r : Fin 4) (i : Fin 512), dsvb (ix2 r i) = dsv (ix2 r (unitOf k i))) :
    ∑ i : Fin 512, db (ix2 p i) * effW dwb dsub dsvb q i = blockSum (clamp (downTerm d dw dsu dsv p n)) 512 k.val := by
  unfold blockSum
  refine Finset.sum_congr rfl fun i _ => ?_
  have hlt : 512 * k.val + i.val < 14336 := (unitOf k i).isLt
  rw [clamp_of_lt _ _ hlt]
  show _ = d (ix2 p (unitOf k i)) * effW dw dsu dsv n (unitOf k i)
  rw [hd i, effW_congr dwb dsub dsvb dw dsu dsv q i n (unitOf k i) (hw i) hsu (fun r => hsv r i)]

end Cert.ScaledMlp

end
-- ==== Proof.GateUpArray.lean ====
/-
  The first region's result array.  Grid point t (of 56) holds rows 256 t … 256 t + 255 of the gate and up weights and of
  their su factors, all of the input rows and of the sv factors, and writes columns 256 t … 256 t + 255 of the hidden
  array.  Each block it reads is the restriction of the array the region found, so what it writes is the restriction of
  one whole-array function, the hidden activations of the arrays as the region found them; the 56 column blocks cover
  the array.
-/
import proofs.«112015_j57269093925327_2_alg».proof.Proof.Gen.KernelIdeal.Frame
import proofs.«112015_j57269093925327_2_alg».proof.Proof.SpecBlocks
import Idealize.ShloMosaic.Lib.Pipeline.Value

set_option maxRecDepth 16384

noncomputable section

namespace Cert.KernelIdeal.GateUp

open Cert.KernelIdeal Cert.KernelIdeal.Gen Cert.ScaledMlp
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the eight windows at grid point t. -/
theorem idx0 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The input rows' block is the whole array. -/
theorem blk_x (c : Dev nD) (t : Fin cfg0.N) (p : Fin 1024) (h : Fin 4096) (p' : Fin 1024) (hp : p'.val = p.val) :
    iblk0 V c 0 t (ix2 p h) = V c main_v1 (ix2 p' h) := by
  obtain ⟨e00, e01, -⟩ := idx0 t
  unfold iblk0
  rw [View.read_apply]
  show V c main_v1 _ = V c main_v1 _
  congr 1; funext a; apply Fin.ext
  match a with
  | ⟨0, _⟩ => show win0_0.index t (0 : Fin 2) * 1024 + 1 * p.val = p'.val; rw [e00]; omega
  | ⟨1, _⟩ => show win0_0.index t (1 : Fin 2) * 4096 + 1 * h.val = h.val; rw [e01]; omega

/-- The gate weight's block is rows 256 t + q of the array. -/
theorem blk_gw (c : Dev nD) (t : Fin cfg0.N) (q : Fin 256) (h : Fin 4096) (n : Fin 14336) (hn : n.val = 256 * t.val + q.val) :
    iblk0 V c 1 t (ix2 q h) = V c main_arg1 (ix2 n h) := by
  obtain ⟨-, -, e0, e1, -⟩ := idx0 t
  unfold iblk0
  rw [View.read_apply]
  show V c main_arg1 _ = V c main_arg1 _
  congr 1; funext a; apply Fin.ext
  match a with
  | ⟨0, _⟩ => show win0_1.index t (0 : Fin 2) * 256 + 1 * q.val = n.val; rw [e0]; omega
  | ⟨1, _⟩ => show win0_1.index t (1 : Fin 2) * 4096 + 1 * h.val = h.val; rw [e1]; omega

theorem blk_gsu (c : Dev nD) (t : Fin cfg0.N) (q : Fin 256) (r : Fin 4) (n : Fin 14336) (hn : n.val = 256 * t.val + q.val) :
    iblk0 V c 2 t (ix2 q r) = V c main_arg2 (ix2 n r) := by
  obtain ⟨-, -, -, -, e0, e1, -⟩ := idx0 t
  unfold iblk0
  rw [View.read_apply]
  show V c main_arg2 _ = V c main_arg2 _
  congr 1; funext a; apply Fin.ext
  match a with
  | ⟨0, _⟩ => show win0_2.index t (0 : Fin 2) * 256 + 1 * q.val = n.val; rw [e0]; omega
  | ⟨1, _⟩ => show win0_2.index t (1 : Fin 2) * 4 + 1 * r.val = r.val; rw [e1]; omega

theorem blk_gsv (c : Dev nD) (t : Fin cfg0.N) (r : Fin 4) (h : Fin 4096) :
    iblk0 V c 3 t (ix2 r h) = V c main_arg3 (ix2 r h) := by
  obtain ⟨-, -, -, -, -, -, e0, e1, -⟩ := idx0 t
  unfold iblk0
  rw [View.read_apply]
  show V c main_arg3 _ = V c main_arg3 _
  congr 1; funext a; apply Fin.ext
  match a with
  | ⟨0, _⟩ => show win0_3.index t (0 : Fin 2) * 4 + 1 * r.val = r.val; rw [e0]; omega
  | ⟨1, _⟩ => show win0_3.index t (1 : Fin 2) * 4096 + 1 * h.val = h.val; rw [e1]; omega

theorem blk_uw (c : Dev nD) (t : Fin cfg0.N) (q : Fin 256) (h : Fin 4096) (n : Fin 14336) (hn : n.val = 256 * t.val + q.val) :
    iblk0 V c 4 t (ix2 q h) = V c main_arg4 (ix2 n h) := by
  obtain ⟨-, -, -, -, -, -, -, -, e0, e1, -⟩ := idx0 t
  unfold iblk0
  rw [View.read_apply]
  show V c main_arg4 _ = V c main_arg4 _
  congr 1; funext a; apply Fin.ext
  match a with
  | ⟨0, _⟩ => show win0_4.index t (0 : Fin 2) * 256 + 1 * q.val = n.val; rw [e0]; omega
  | ⟨1, _⟩ => show win0_4.index t (1 : Fin 2) * 4096 + 1 * h.val = h.val; rw [e1]; omega

theorem blk_usu (c : Dev nD) (t : Fin cfg0.N) (q : Fin 256) (r : Fin 4) (n : Fin 14336) (hn : n.val = 256 * t.val + q.val) :
    iblk0 V c 5 t (ix2 q r) = V c main_arg5 (ix2 n r) := by
  obtain ⟨-, -, -, -, -, -, -, -, -, -, e0, e1, -⟩ := idx0 t
  unfold iblk0
  rw [View.read_apply]
  show V c main_arg5 _ = V c main_arg5 _
  congr 1; funext a; apply Fin.ext
  match a with
  | ⟨0, _⟩ => show win0_5.index t (0 : Fin 2) * 256 + 1 * q.val = n.val; rw [e0]; omega
  | ⟨1, _⟩ => show win0_5.index t (1 : Fin 2) * 4 + 1 * r.val = r.val; rw [e1]; omega

theorem blk_usv (c : Dev nD) (t : Fin cfg0.N) (r : Fin 4) (h : Fin 4096) :
    iblk0 V c 6 t (ix2 r h) = V c main_arg6 (ix2 r h) := by
  obtain ⟨-, -, -, -, -, -, -, -, -, -, -, -, e0, e1, -⟩ := idx0 t
  unfold iblk0
  rw [View.read_apply]
  show V c main_arg6 _ = V c main_arg6 _
  congr 1; funext a; apply Fin.ext
  match a with
  | ⟨0, _⟩ => show win0_6.index t (0 : Fin 2) * 4 + 1 * r.val = r.val; rw [e0]; omega
  | ⟨1, _⟩ => show win0_6.index t (1 : Fin 2) * 4096 + 1 * h.val = h.val; rw [e1]; omega

/-- The hidden activations of the arrays as the region finds them. -/
def hiddenOf (c : Dev nD) : Vec Ideal S1024x14336 .bf16 :=
  hiddenArr (V c main_v1) (V c main_arg1) (V c main_arg2) (V c main_arg3) (V c main_arg4) (V c main_arg5) (V c main_arg6)

/-- What one block of the body computes, index by index: the hidden activations of its blocks. -/
def BlockFact : Prop :=
  ∀ (x0 : Vec Ideal S1024x4096 .bf16) (x1 : Vec Ideal S256x4096 .f32) (x2 : Vec Ideal S256x4 .f32) (x3 : Vec Ideal S4x4096 .f32)
    (x4 : Vec Ideal S256x4096 .f32) (x5 : Vec Ideal S256x4 .f32) (x6 : Vec Ideal S4x4096 .f32) (p : Fin 1024) (q : Fin 256),
    out0_7 (F := Ideal) x0 x1 x2 x3 x4 x5 x6 (ix2 p q) = hidden x0 x1 x2 x3 x4 x5 x6 p q

/-- What grid point t writes back is block t of the hidden array. -/
theorem flushed_eq (hblk : BlockFact) (c : Dev nD) (t : Fin cfg0.N) :
    (dat0 V c).flushed 7 t = ((cfg0.win 7).blk t).view.read (Elt Ideal) (hiddenOf V c) := by
  show (cfg0.win 7).cut (grid0.coords t) ((dat0 V c).after 7 t) = _
  rw [after0_7]
  funext y
  obtain ⟨p, q, rfl⟩ : ∃ (p : Fin 1024) (q : Fin 256), y = ix2 p q := ⟨y 0, y 1, eq_ix2 y⟩
  refine (hblk (iblk0 V c 0 t) (iblk0 V c 1 t) (iblk0 V c 2 t) (iblk0 V c 3 t) (iblk0 V c 4 t) (iblk0 V c 5 t) (iblk0 V c 6 t) p q).trans ?_
  rw [View.read_apply]
  obtain ⟨-, -, -, -, -, -, -, -, -, -, -, -, -, -, e70, e71⟩ := idx0 t
  have hj0 : ((((cfg0.win 7).blk t).view.emb (ix2 p q)) 0).val = p.val := by
    show win0_7.index t (0 : Fin 2) * 1024 + 1 * p.val = p.val; rw [e70]; omega
  have hj1 : ((((cfg0.win 7).blk t).view.emb (ix2 p q)) 1).val = 256 * t.val + q.val := by
    show win0_7.index t (1 : Fin 2) * 256 + 1 * q.val = 256 * t.val + q.val; rw [e71]; omega
  show hidden _ _ _ _ _ _ _ p q = hidden (V c main_v1) (V c main_arg1) (V c main_arg2) (V c main_arg3) (V c main_arg4) (V c main_arg5) (V c main_arg6)
    ((((cfg0.win 7).blk t).view.emb (ix2 p q)) 0) ((((cfg0.win 7).blk t).view.emb (ix2 p q)) 1)
  exact hidden_congr _ _ _ _ _ _ _ _ _ _ _ _ _ _ p q _ _
    (fun h => blk_x V c t p h _ hj0) (fun h => blk_gw V c t q h _ hj1) (fun r => blk_gsu V c t q r _ hj1) (fun r h => blk_gsv V c t r h)
    (fun h => blk_uw V c t q h _ hj1) (fun r => blk_usu V c t q r _ hj1) (fun r h => blk_usv V c t r h)

/-- Every entry of the hidden array lies in the block of the point that owns its column. -/
theorem cover (i : S1024x14336.Idx) : ∃ t : Fin cfg0.N, (cfg0.win 7).flush t = true ∧ i ∈ ((cfg0.win 7).blk t).view.set := by
  have hN : cfg0.N = 56 := N_0
  have h0 : (i 0).val < 1024 := (i 0).isLt
  have h1 : (i 1).val < 14336 := (i 1).isLt
  let t : Fin cfg0.N := ⟨(i 1).val / 256, by rw [hN]; omega⟩
  refine ⟨t, flush0_7 t, ?_⟩
  obtain ⟨-, -, -, -, -, -, -, -, -, -, -, -, -, -, e70, e71⟩ := idx0 t
  show i ∈ ((View.whole main_v2).slice (win0_7.rect t)).set
  rw [View.set_slice_whole, Rect.mem_set_unit]
  intro a
  match a with
  | ⟨0, _⟩ =>
    show win0_7.index t (0 : Fin 2) * 1024 ≤ (i 0).val ∧ (i 0).val < win0_7.index t (0 : Fin 2) * 1024 + 1024
    rw [e70]; omega
  | ⟨1, _⟩ =>
    show win0_7.index t (1 : Fin 2) * 256 ≤ (i 1).val ∧ (i 1).val < win0_7.index t (1 : Fin 2) * 256 + 256
    rw [e71]; show (i 1).val / 256 * 256 ≤ (i 1).val ∧ (i 1).val < (i 1).val / 256 * 256 + 256; omega

/-- After the region the hidden array holds the hidden activations of the arrays as the region found them. -/
theorem final (hblk : BlockFact) (c : Dev nD) : (dat0 V c).arrAt 7 cfg0.N = hiddenOf V c :=
  (dat0 V c).arrAt_eq_of_cover 7 (hiddenOf V c) (fun t _ => flushed_eq V hblk c t) cover

end Cert.KernelIdeal.GateUp

end
-- ==== Proof.DownBody.lean ====
/-
  What the second kernel's body leaves in its output block, case by case.  At the first step of a row of the grid the
  body stores the zero block, reads it back and stores zero-block + product; at every later step it reads the block
  the step before left and stores that + product.  In both cases the block after the body is the body's one
  arithmetic term (the accumulator plus the block product) of the input blocks and of the accumulator it started from.
-/
import proofs.«112015_j57269093925327_2_alg».proof.Proof.Gen.KernelIdeal.Frame
import Idealize.ShloMosaic.Lib.Pipeline.Value
import Idealize.ShloMosaic.Lib.Tactic

noncomputable section

namespace Cert.KernelIdeal.DownBody

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A later step: the accumulator block `xo` the step before left, plus the block product. -/
theorem down_next (c : Dev nD) (i : grid1.Coords) (a2 : Memref sig .tc .vmem S1024x512 .bf16) (h2 : a2.IsWhole)
    (a3 : Memref sig .tc .vmem S2048x512 .f32) (h3 : a3.IsWhole) (a4 : Memref sig .tc .vmem S2048x4 .f32) (h4 : a4.IsWhole)
    (a5 : Memref sig .tc .vmem S4x512 .f32) (h5 : a5.IsWhole) (a6 : Memref sig .tc .vmem S1024x2048 .f32) (h6 : a6.IsWhole)
    (hc : ¬cond1_0 i) (x0 : Vec F S1024x512 .bf16) (x1 : Vec F S2048x512 .f32) (x2 : Vec F S2048x4 .f32) (x3 : Vec F S4x512 .f32)
    (xo : Vec F S1024x2048 .f32) :
    out1_B_4 c i a2 h2 a3 h3 a4 h4 a5 h5 a6 h6 hc x0 x1 x2 x3 xo = k1_pay2 x2 x3 x1 x0 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz]
  simp only [View.readAt_eq_ld, h2.read_unread, h3.read_unread, h4.read_unread, h5.read_unread, h6.read_unread,
    View.ld_unit_zero (S := S1024x512) hz, View.ld_unit_zero (S := S2048x512) hz, View.ld_unit_zero (S := S2048x4) hz,
    View.ld_unit_zero (S := S4x512) hz, View.ld_unit_zero (S := S1024x2048) hz]

/-- The first step of a row of the grid: the zero block, plus the block product. -/
theorem down_first (c : Dev nD) (i : grid1.Coords) (a2 : Memref sig .tc .vmem S1024x512 .bf16) (h2 : a2.IsWhole)
    (a3 : Memref sig .tc .vmem S2048x512 .f32) (h3 : a3.IsWhole) (a4 : Memref sig .tc .vmem S2048x4 .f32) (h4 : a4.IsWhole)
    (a5 : Memref sig .tc .vmem S4x512 .f32) (h5 : a5.IsWhole) (a6 : Memref sig .tc .vmem S1024x2048 .f32) (h6 : a6.IsWhole)
    (hc : cond1_0 i) (x0 : Vec F S1024x512 .bf16) (x1 : Vec F S2048x512 .f32) (x2 : Vec F S2048x4 .f32) (x3 : Vec F S4x512 .f32) :
    out1_A_4 c i a2 h2 a3 h3 a4 h4 a5 h5 a6 h6 hc x0 x1 x2 x3 = k1_pay2 x2 x3 x1 x0 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1024x2048) hz, View.readCov_unit_zero (S := S1024x2048) _ hz]
  simp only [View.readAt_eq_ld, h2.read_unread, h3.read_unread, h4.read_unread, h5.read_unread,
    View.ld_unit_zero (S := S1024x512) hz, View.ld_unit_zero (S := S2048x512) hz, View.ld_unit_zero (S := S2048x4) hz,
    View.ld_unit_zero (S := S4x512) hz]

end Cert.KernelIdeal.DownBody

end
-- ==== Proof.DownArray.lean ====
/-
  The second region's result array.  Grid point t = 28 hh + k (hh < 2, k < 28) holds columns 512 k … 512 k + 511 of the
  hidden array, of the down weight's rows 2048 hh … 2048 hh + 2047 and of the sv factor, and those rows of the su factor;
  its output block, rows 2048 hh … of the result's columns, stays in place while k runs and is written back at k = 27.
  After the point, entry (p, q) of the block holds the running total over the blocks 0 … k of the terms of output
  (p, 2048 hh + q) of the down projection, started from zero at k = 0 (`acc_eq`, by induction on the point); at k = 27 that
  is the whole sum, so each write-back is a block of one whole-array function and the two blocks cover the array.
-/
import proofs.«112015_j57269093925327_2_alg».proof.Proof.Gen.KernelIdeal.Frame
import proofs.«112015_j57269093925327_2_alg».proof.Proof.SpecBlocks
import proofs.«112015_j57269093925327_2_alg».proof.Proof.DownBody
import Idealize.ShloMosaic.Lib.Pipeline.Value

set_option maxRecDepth 16384

noncomputable section

namespace Cert.KernelIdeal.Down

open Cert.KernelIdeal Cert.KernelIdeal.Gen Cert.ScaledMlp
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The block indices of the five windows at grid point t = 28 hh + k. -/
theorem idx1 : ∀ t : Fin cfg1.N,
    win1_0.index t (0 : Fin 2) = 0 ∧ win1_0.index t (1 : Fin 2) = t.val % 28
    ∧ win1_1.index t (0 : Fin 2) = t.val / 28 ∧ win1_1.index t (1 : Fin 2) = t.val % 28
    ∧ win1_2.index t (0 : Fin 2) = t.val / 28 ∧ win1_2.index t (1 : Fin 2) = 0
    ∧ win1_3.index t (0 : Fin 2) = 0 ∧ win1_3.index t (1 : Fin 2) = t.val % 28
    ∧ win1_4.index t (0 : Fin 2) = 0 ∧ win1_4.index t (1 : Fin 2) = t.val / 28 :=
  (by decide +kernel : ∀ t : Fin grid1.N, _)

/-- The hidden array's block: columns 512 k + i. -/
theorem blk_d (c : Dev nD) (t : Fin cfg1.N) (p : Fin 1024) (i : Fin 512) (j : Fin 14336) (hj : j.val = 512 * (t.val % 28) + i.val) :
    iblk1 V c 0 t (ix2 p i) = V c main_v2 (ix2 p j) := by
  obtain ⟨e0, e1, -⟩ := idx1 t
  unfold iblk1
  rw [View.read_apply]
  show V c main_v2 _ = V c main_v2 _
  congr 1; funext a; apply Fin.ext
  match a with
  | ⟨0, _⟩ => show win1_0.index t (0 : Fin 2) * 1024 + 1 * p.val = p.val; rw [e0]; omega
  | ⟨1, _⟩ => show win1_0.index t (1 : Fin 2) * 512 + 1 * i.val = j.val; rw [e1]; omega

/-- The down weight's block: rows 2048 hh + q, columns 512 k + i. -/
theorem blk_dw (c : Dev nD) (t : Fin cfg1.N) (q : Fin 2048) (i : Fin 512) (n : Fin 4096) (j : Fin 14336)
    (hn : n.val = 2048 * (t.val / 28) + q.val) (hj : j.val = 512 * (t.val % 28) + i.val) :
    iblk1 V c 1 t (ix2 q i) = V c main_arg7 (ix2 n j) := by
  obtain ⟨-, -, e0, e1, -⟩ := idx1 t
  unfold iblk1
  rw [View.read_apply]
  show V c main_arg7 _ = V c main_arg7 _
  congr 1; funext a; apply Fin.ext
  match a with
  | ⟨0, _⟩ => show win1_1.index t (0 : Fin 2) * 2048 + 1 * q.val = n.val; rw [e0]; omega
  | ⟨1, _⟩ => show win1_1.index t (1 : Fin 2) * 512 + 1 * i.val = j.val; rw [e1]; omega

theorem blk_dsu (c : Dev nD) (t : Fin cfg1.N) (q : Fin 2048) (r : Fin 4) (n : Fin 4096) (hn : n.val = 2048 * (t.val / 28) + q.val) :
    iblk1 V c 2 t (ix2 q r) = V c main_arg8 (ix2 n r) := by
  obtain ⟨-, -, -, -, e0, e1, -⟩ := idx1 t
  unfold iblk1
  rw [View.read_apply]
  show V c main_arg8 _ = V c main_arg8 _
  congr 1; funext a; apply Fin.ext
  match a with
  | ⟨0, _⟩ => show win1_2.index t (0 : Fin 2) * 2048 + 1 * q.val = n.val; rw [e0]; omega
  | ⟨1, _⟩ => show win1_2.index t (1 : Fin 2) * 4 + 1 * r.val = r.val; rw [e1]; omega

theorem blk_dsv (c : Dev nD) (t : Fin cfg1.N) (r : Fin 4) (i : Fin 512) (j : Fin 14336) (hj : j.val = 512 * (t.val % 28) + i.val) :
    iblk1 V c 3 t (ix2 r i) = V c main_arg9 (ix2 r j) := by
  obtain ⟨-, -, -, -, -, -, e0, e1, -⟩ := idx1 t
  unfold iblk1
  rw [View.read_apply]
  show V c main_arg9 _ = V c main_arg9 _
  congr 1; funext a; apply Fin.ext
  match a with
  | ⟨0, _⟩ => show win1_3.index t (0 : Fin 2) * 4 + 1 * r.val = r.val; rw [e0]; omega
  | ⟨1, _⟩ => show win1_3.index t (1 : Fin 2) * 512 + 1 * i.val = j.val; rw [e1]; omega

/-- The product of row p of a block of 512 hidden units with row q of the matching block of the effective down weight. -/
def blockProd (db : Arr2 1024 512) (dwb : Arr2 2048 512) (dsub : Arr2 2048 4) (dsvb : Arr2 4 512) (p : Fin 1024) (q : Fin 2048) : EReal :=
  ∑ i : Fin 512, db (ix2 p i) * effW dwb dsub dsvb q i

/-- One step of the body at an index: the accumulator plus the block's product; and the zero block. -/
def StepFact : Prop :=
  ∀ (v3 : Vec Ideal S2048x4 .f32) (v4 : Vec Ideal S4x512 .f32) (v28 : Vec Ideal S2048x512 .f32) (v31 : Vec Ideal S1024x512 .bf16)
    (v34 : Vec Ideal S1024x2048 .f32) (p : Fin 1024) (q : Fin 2048),
    k1_pay2 (F := Ideal) v3 v4 v28 v31 v34 (ix2 p q) = v34 (ix2 p q) + blockProd v31 v28 v3 v4 p q
def ZeroFact : Prop := ∀ j : S1024x2048.Idx, k1_pay1 (F := Ideal) j = 0

/-- The terms of output (p, n) of the down projection of the arrays as the region finds them. -/
abbrev termsOf (c : Dev nD) (p : Fin 1024) (n : Fin 4096) : Fin 14336 → EReal :=
  downTerm (V c main_v2) (V c main_arg7) (V c main_arg8) (V c main_arg9) p n

/-- The block product at point t is block t % 28 of the whole sum. -/
theorem step_blockSum (c : Dev nD) (t : Fin cfg1.N) (p : Fin 1024) (q : Fin 2048) (n : Fin 4096)
    (hn : n.val = 2048 * (t.val / 28) + q.val) :
    blockProd (iblk1 V c 0 t) (iblk1 V c 1 t) (iblk1 V c 2 t) (iblk1 V c 3 t) p q
      = blockSum (clamp (termsOf V c p n)) 512 (t.val % 28) := by
  have hk : t.val % 28 < 28 := Nat.mod_lt _ (by decide)
  exact step_eq_blockSum (V c main_v2) (V c main_arg7) (V c main_arg8) (V c main_arg9)
    (iblk1 V c 0 t) (iblk1 V c 1 t) (iblk1 V c 2 t) (iblk1 V c 3 t) p q n ⟨t.val % 28, hk⟩
    (fun i => blk_d V c t p i _ rfl) (fun i => blk_dw V c t q i n _ hn rfl) (fun r => blk_dsu V c t q r n hn)
    (fun r i => blk_dsv V c t r i _ rfl)

/-- THE RUNNING TOTAL.  After point n, entry (p, q) of the output block is the total over blocks 0 … n % 28 of the terms of
    output (p, 2048 (n / 28) + q), started from zero. -/
theorem acc_eq (hstep : StepFact) (hzero : ZeroFact) (c : Dev nD) : ∀ (n : ℕ) (hn : n < cfg1.N) (p : Fin 1024) (q : Fin 2048) (r : Fin 4096),
    r.val = 2048 * (n / 28) + q.val → outsAt1 V c n hn (ix2 p q) = accTo (clamp (termsOf V c p r)) 512 (n % 28)
  | 0, hn, p, q, r, hr => by
    rw [outsAt1_A V c ⟨0, hn⟩ rfl, DownBody.down_first]
    refine (hstep _ _ _ _ _ p q).trans ?_
    rw [hzero, step_blockSum V c ⟨0, hn⟩ p q r hr]
    rfl
  | n + 1, hn, p, q, r, hr => by
    by_cases h0 : (n + 1) % 28 = 0
    · rw [outsAt1_A V c ⟨n + 1, hn⟩ h0, DownBody.down_first]
      refine (hstep _ _ _ _ _ p q).trans ?_
      rw [hzero, step_blockSum V c ⟨n + 1, hn⟩ p q r hr]
      show 0 + blockSum _ 512 ((n + 1) % 28) = accTo _ 512 ((n + 1) % 28)
      rw [h0]
      rfl
    · rw [outsAt1_B V c ⟨n + 1, hn⟩ h0, DownBody.down_next]
      refine (hstep _ _ _ _ _ p q).trans ?_
      rw [step_blockSum V c ⟨n + 1, hn⟩ p q r hr]
      show outsAt1 V c n _ (ix2 p q) + blockSum _ 512 ((n + 1) % 28) = accTo _ 512 ((n + 1) % 28)
      rw [acc_eq hstep hzero c n (Nat.lt_of_succ_lt hn) p q r (by omega)]
      have hm : (n + 1) % 28 = n % 28 + 1 := by omega
      rw [hm]
      rfl

/-- The down projection of the arrays as the region finds them. -/
def outOf (c : Dev nD) : Vec Ideal S1024x4096 .f32 :=
  fun i => proj (V c main_v2) (V c main_arg7) (V c main_arg8) (V c main_arg9) (i 0) (i 1)

/-- What a point with k = 27 writes back is its block of the down projection. -/
theorem flushed_eq (hstep : StepFact) (hzero : ZeroFact) (c : Dev nD) (t : Fin cfg1.N) (hf : (cfg1.win 4).flush t = true) :
    (dat1 V c).flushed 4 t = ((cfg1.win 4).blk t).view.read (Elt Ideal) (outOf V c) := by
  have h27 : t.val % 28 = 27 := (flush1_4 t).mp hf
  show (cfg1.win 4).cut (grid1.coords t) ((dat1 V c).after 4 t) = _
  rw [after1_4]
  funext y
  obtain ⟨p, q, rfl⟩ : ∃ (p : Fin 1024) (q : Fin 2048), y = ix2 p q := ⟨y 0, y 1, eq_ix2 y⟩
  rw [View.read_apply]
  obtain ⟨-, -, -, -, -, -, -, -, e40, e41⟩ := idx1 t
  have hj0 : ((((cfg1.win 4).blk t).view.emb (ix2 p q)) 0).val = p.val := by
    show win1_4.index t (0 : Fin 2) * 1024 + 1 * p.val = p.val; rw [e40]; omega
  have hj1 : ((((cfg1.win 4).blk t).view.emb (ix2 p q)) 1).val = 2048 * (t.val / 28) + q.val := by
    show win1_4.index t (1 : Fin 2) * 2048 + 1 * q.val = 2048 * (t.val / 28) + q.val; rw [e41]; omega
  have key : ∀ (p' : Fin 1024) (r : Fin 4096), p'.val = p.val →
      accTo (clamp (termsOf V c p r)) 512 27 = proj (V c main_v2) (V c main_arg7) (V c main_arg8) (V c main_arg9) p' r := by
    intro p' r hp
    obtain rfl : p' = p := Fin.ext hp
    rw [accTo_clamp_last]
    rfl
  refine (acc_eq V hstep hzero c t.val t.isLt p q _ hj1).trans ?_
  rw [h27]
  exact key _ _ hj0

/-- Every entry of the result lies in the block of the last point of its row of the grid. -/
theorem cover (i : S1024x4096.Idx) : ∃ t : Fin cfg1.N, (cfg1.win 4).flush t = true ∧ i ∈ ((cfg1.win 4).blk t).view.set := by
  have hN : cfg1.N = 56 := N_1
  have h0 : (i 0).val < 1024 := (i 0).isLt
  have h1 : (i 1).val < 4096 := (i 1).isLt
  let t : Fin cfg1.N := ⟨28 * ((i 1).val / 2048) + 27, by rw [hN]; omega⟩
  have ht : t.val = 28 * ((i 1).val / 2048) + 27 := rfl
  refine ⟨t, (flush1_4 t).mpr (by rw [ht]; omega), ?_⟩
  obtain ⟨-, -, -, -, -, -, -, -, e40, e41⟩ := idx1 t
  show i ∈ ((View.whole main_v3).slice (win1_4.rect t)).set
  rw [View.set_slice_whole, Rect.mem_set_unit]
  intro a
  match a with
  | ⟨0, _⟩ =>
    show win1_4.index t (0 : Fin 2) * 1024 ≤ (i 0).val ∧ (i 0).val < win1_4.index t (0 : Fin 2) * 1024 + 1024
    rw [e40]; omega
  | ⟨1, _⟩ =>
    show win1_4.index t (1 : Fin 2) * 2048 ≤ (i 1).val ∧ (i 1).val < win1_4.index t (1 : Fin 2) * 2048 + 2048
    rw [e41, ht]; omega

/-- After the region the result array holds the down projection of the arrays as the region found them. -/
theorem final (hstep : StepFact) (hzero : ZeroFact) (c : Dev nD) : (dat1 V c).arrAt 4 cfg1.N = outOf V c :=
  (dat1 V c).arrAt_eq_of_cover 4 (outOf V c) (flushed_eq V hstep hzero c) cover

end Cert.KernelIdeal.Down

end
-- ==== Proof.BlockValues.lean ====
import proofs.«112015_j57269093925327_2_alg».proof.Proof.Gen.KernelIdeal.Frame
import proofs.«112015_j57269093925327_2_alg».proof.Proof.Spec
import Idealize.ShloMosaic.Lib.Pipeline.Value
import Idealize.ShloMosaic.Lib.ValueIdx
import Idealize.ShloMosaic.PureOps.Ideal.Laws

noncomputable section

/-
  What the two kernel bodies compute on ONE block, read at an index, on the extended reals.

  The first body (gate and up projections, gated unit) leaves in its output block, at row p and unit q,
  silu(g) * u with g and u the two scaled projections of row p of the resident input against row q of the
  gate and of the up weight block.  The second body (down projection) adds to its accumulator block, at row p
  and column q, the product of row p of the hidden block with row q of the scaled down weight block; at the
  first step of a column block it starts from the zero block.

  Each rank-4 scale is built in the body as four products of a column of su spread along the rows with a row
  of sv spread down the columns, added left to right: read at (q, h) these are su[q, r] * sv[r, h].
-/
namespace Cert.KernelIdeal.BlockValue

open Cert.KernelIdeal Cert.KernelIdeal.Gen Idealize.ShloMosaic Idealize.ShloMosaic.ValueIdx

/-- Column r of an [256, 4] array spread along the rows of a [256, 4096] block reads su[q, r]. -/
theorem su_col_256 (su : Vec Ideal S256x4 .f32) (r : Nat) (hr : r < 4) (hs : S256x4.Slices ![0, r] S256x1)
    (hb : S256x1.Broadcasts S256x4096) (q : Fin 256) (i : Fin 4096) :
    broadcastTo S256x4096 (extractStridedSlice S256x1 ![0, r] su hs) hb (ix2 q i) = su (ix2 q ⟨r, hr⟩) :=
  congrArg su (funext fun a => Fin.ext (by
    match a with
    | ⟨0, _⟩ => exact Nat.zero_add _
    | ⟨1, _⟩ => rfl))

/-- Row r of a [4, 4096] array spread down the columns of a [256, 4096] block reads sv[r, i]. -/
theorem sv_row_4096 (sv : Vec Ideal S4x4096 .f32) (r : Nat) (hr : r < 4) (hs : S4x4096.Slices ![r, 0] S1x4096)
    (hb : S1x4096.Broadcasts S256x4096) (q : Fin 256) (i : Fin 4096) :
    broadcastTo S256x4096 (extractStridedSlice S1x4096 ![r, 0] sv hs) hb (ix2 q i) = sv (ix2 ⟨r, hr⟩ i) :=
  congrArg sv (funext fun a => Fin.ext (by
    match a with
    | ⟨0, _⟩ => rfl
    | ⟨1, _⟩ => exact Nat.zero_add _))

theorem gate_dot_lhs0 (j : S1024x256.Idx) (c : dot_S1024x4096_S256x4096_S1024x256_1_1_0_0_n_n.contr.Idx) : (dot_S1024x4096_S256x4096_S1024x256_1_1_0_0_n_n.lhsIdx j c 0).val = (j 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
theorem gate_dot_lhs1 (j : S1024x256.Idx) (c : dot_S1024x4096_S256x4096_S1024x256_1_1_0_0_n_n.contr.Idx) : (dot_S1024x4096_S256x4096_S1024x256_1_1_0_0_n_n.lhsIdx j c 1).val = (c ⟨0, by decide⟩).val :=
  dot_S1024x4096_S256x4096_S1024x256_1_1_0_0_n_n.lhsIdx_val_of_single rfl j c
theorem gate_dot_rhs0 (j : S1024x256.Idx) (c : dot_S1024x4096_S256x4096_S1024x256_1_1_0_0_n_n.contr.Idx) : (dot_S1024x4096_S256x4096_S1024x256_1_1_0_0_n_n.rhsIdx j c 0).val = (j 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
theorem gate_dot_rhs1 (j : S1024x256.Idx) (c : dot_S1024x4096_S256x4096_S1024x256_1_1_0_0_n_n.contr.Idx) : (dot_S1024x4096_S256x4096_S1024x256_1_1_0_0_n_n.rhsIdx j c 1).val = (c ⟨0, by decide⟩).val :=
  dot_S1024x4096_S256x4096_S1024x256_1_1_0_0_n_n.rhsIdx_val_of_single rfl j c

/-- The product into the zero block, read at row p, column q: the sum over the contracted axis of
    the left operand's row p against the right operand's row q. -/
theorem gate_dot (a : FVec Ideal S1024x4096 .bf16) (w : FVec Ideal S256x4096 .bf16) (p : Fin 1024) (q : Fin 256) :
    matmul dot_S1024x4096_S256x4096_S1024x256_1_1_0_0_n_n none a w (constant S1024x256 .f32 0x00000000#32) (ix2 p q)
      = ∑ k : Fin 4096, a (ix2 p k) * w (ix2 q k) := by
  refine (Ideal.matmul_constant_zero_apply dot_S1024x4096_S256x4096_S1024x256_1_1_0_0_n_n none a w (ix2 p q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 p q) ((contrEquiv1 dot_S1024x4096_S256x4096_S1024x256_1_1_0_0_n_n 4096 rfl rfl).symm k) = ix2 p k :=
    funext fun c => Fin.ext (by
      match c with
      | ⟨0, _⟩ => exact gate_dot_lhs0 _ _
      | ⟨1, _⟩ => exact (gate_dot_lhs1 _ _).trans hk)
  have er : dot_S1024x4096_S256x4096_S1024x256_1_1_0_0_n_n.rhsIdx (ix2 p q) ((contrEquiv1 dot_S1024x4096_S256x4096_S1024x256_1_1_0_0_n_n 4096 rfl rfl).symm k) = ix2 q k :=
    funext fun c => Fin.ext (by
      match c with
      | ⟨0, _⟩ => exact gate_dot_rhs0 _ _
      | ⟨1, _⟩ => exact (gate_dot_rhs1 _ _).trans hk)
  rw [el, er]

theorem hz : (![0, 0] : Fin 2 → Nat) = fun _ => 0 := funext fun a => by fin_cases a <;> rfl

/-- The logistic function of a block, read at an index. -/
theorem logistic_apply {s : Shape} {φ : FTy} (x : FVec Ideal s φ) (i : s.Idx) : logistic x i = Ideal.logistic (x i) := rfl

/-- The gate projection: row p of the input against row q of the gate weight block times its rank-4 scale. -/
theorem gate_proj (x : Vec Ideal S1024x4096 .bf16) (w : Vec Ideal S256x4096 .f32) (su : Vec Ideal S256x4 .f32)
    (sv : Vec Ideal S4x4096 .f32) (p : Fin 1024) (q : Fin 256) :
    matmul (φ₁ := .bf16) dot_S1024x4096_S256x4096_S1024x256_1_1_0_0_n_n none x (k0_pay3 su sv w) (constant S1024x256 .f32 0x00000000#32) (ix2 p q)
      = Cert.ScaledMlp.proj x w su sv p q := by
  refine (gate_dot _ _ p q).trans ?_
  unfold Cert.ScaledMlp.proj
  refine Finset.sum_congr rfl fun h _ => ?_
  refine congrArg (x (ix2 p h) * ·) ?_
  unfold k0_pay3 Cert.ScaledMlp.effW Cert.ScaledMlp.scale4
  simp only [truncf_apply, mulf_apply, addf_apply,
    su_col_256 _ 0 (by decide), su_col_256 _ 1 (by decide), su_col_256 _ 2 (by decide), su_col_256 _ 3 (by decide),
    sv_row_4096 _ 0 (by decide), sv_row_4096 _ 1 (by decide), sv_row_4096 _ 2 (by decide), sv_row_4096 _ 3 (by decide)]
  rfl

/-- The up projection, whose scale the body builds in pieces: its first two products, the two factors of the
    third, and the fourth in place. -/
theorem up_proj (x : Vec Ideal S1024x4096 .bf16) (w : Vec Ideal S256x4096 .f32) (su : Vec Ideal S256x4 .f32)
    (sv : Vec Ideal S4x4096 .f32) (p : Fin 1024) (q : Fin 256) :
    matmul (φ₁ := .bf16) dot_S1024x4096_S256x4096_S1024x256_1_1_0_0_n_n none x
        (truncf .bf16 (mulf w (addf (addf (k0_pay4 su sv) (mulf (k0_pay5 su) (k0_pay6 sv)))
          (mulf (broadcastTo S256x4096 (extractStridedSlice S256x1 ![0, 3] su slices_S256x4_o0_3_S256x1) broadcasts_S256x1_S256x4096)
            (broadcastTo S256x4096 (extractStridedSlice S1x4096 ![3, 0] sv slices_S4x4096_o3_0_S1x4096) broadcasts_S1x4096_S256x4096)))) bitsLt_bf16_f32)
        (constant S1024x256 .f32 0x00000000#32) (ix2 p q)
      = Cert.ScaledMlp.proj x w su sv p q := by
  refine (gate_dot _ _ p q).trans ?_
  unfold Cert.ScaledMlp.proj
  refine Finset.sum_congr rfl fun h _ => ?_
  refine congrArg (x (ix2 p h) * ·) ?_
  unfold k0_pay4 k0_pay5 k0_pay6 Cert.ScaledMlp.effW Cert.ScaledMlp.scale4
  simp only [truncf_apply, mulf_apply, addf_apply,
    su_col_256 _ 0 (by decide), su_col_256 _ 1 (by decide), su_col_256 _ 2 (by decide), su_col_256 _ 3 (by decide),
    sv_row_4096 _ 0 (by decide), sv_row_4096 _ 1 (by decide), sv_row_4096 _ 2 (by decide), sv_row_4096 _ 3 (by decide)]
  rfl

/-- The first body's one store, read at row p and unit q, from the blocks it loads. -/
theorem pay1_apply (x0 : Vec Ideal S1024x4096 .bf16) (x1 : Vec Ideal S256x4096 .f32) (x2 : Vec Ideal S256x4 .f32)
    (x3 : Vec Ideal S4x4096 .f32) (x4 : Vec Ideal S256x4096 .f32) (x5 : Vec Ideal S256x4 .f32) (x6 : Vec Ideal S4x4096 .f32)
    (p : Fin 1024) (q : Fin 256) :
    k0_pay1 (F := Ideal) (k0_pay2 x0) (k0_pay3 x2 x3 x1) x5 x6 (k0_pay4 x5 x6) (k0_pay5 x5) (k0_pay6 x6) x4 (ix2 p q)
      = Cert.ScaledMlp.hidden x0 x1 x2 x3 x4 x5 x6 p q := by
  unfold k0_pay1 k0_pay2
  simp only [shapeCast_self, truncf_apply, mulf_apply, logistic_apply]
  unfold Cert.ScaledMlp.hidden Cert.ScaledMlp.swiglu
  refine congrArg₂ (· * ·) (congrArg₂ (fun a b => a * Ideal.logistic b) ?_ ?_) ?_
  · exact gate_proj x0 x1 x2 x3 p q
  · exact gate_proj x0 x1 x2 x3 p q
  · exact up_proj x0 x4 x5 x6 p q

/-- The first kernel's output block at row p, unit q: the gated unit of the gate and up projections. -/
theorem gateUp_block (x0 : Vec Ideal S1024x4096 .bf16) (x1 : Vec Ideal S256x4096 .f32) (x2 : Vec Ideal S256x4 .f32)
    (x3 : Vec Ideal S4x4096 .f32) (x4 : Vec Ideal S256x4096 .f32) (x5 : Vec Ideal S256x4 .f32) (x6 : Vec Ideal S4x4096 .f32)
    (p : Fin 1024) (q : Fin 256) :
    out0_7 (F := Ideal) x0 x1 x2 x3 x4 x5 x6 (ix2 p q) = Cert.ScaledMlp.hidden x0 x1 x2 x3 x4 x5 x6 p q := by
  unfold out0_7
  rw [View.canon_unit_zero hz]
  simp only [View.ld_unit_zero (S := S1024x4096) hz, View.ld_unit_zero (S := S256x4096) hz,
    View.ld_unit_zero (S := S256x4) hz, View.ld_unit_zero (S := S4x4096) hz]
  exact pay1_apply x0 x1 x2 x3 x4 x5 x6 p q

/-- Column r of an [2048, 4] array spread along the rows of a [2048, 512] block reads su[q, r]. -/
theorem su_col_2048 (su : Vec Ideal S2048x4 .f32) (r : Nat) (hr : r < 4) (hs : S2048x4.Slices ![0, r] S2048x1)
    (hb : S2048x1.Broadcasts S2048x512) (q : Fin 2048) (i : Fin 512) :
    broadcastTo S2048x512 (extractStridedSlice S2048x1 ![0, r] su hs) hb (ix2 q i) = su (ix2 q ⟨r, hr⟩) :=
  congrArg su (funext fun a => Fin.ext (by
    match a with
    | ⟨0, _⟩ => exact Nat.zero_add _
    | ⟨1, _⟩ => rfl))

/-- Row r of a [4, 512] array spread down the columns of a [2048, 512] block reads sv[r, i]. -/
theorem sv_row_512 (sv : Vec Ideal S4x512 .f32) (r : Nat) (hr : r < 4) (hs : S4x512.Slices ![r, 0] S1x512)
    (hb : S1x512.Broadcasts S2048x512) (q : Fin 2048) (i : Fin 512) :
    broadcastTo S2048x512 (extractStridedSlice S1x512 ![r, 0] sv hs) hb (ix2 q i) = sv (ix2 ⟨r, hr⟩ i) :=
  congrArg sv (funext fun a => Fin.ext (by
    match a with
    | ⟨0, _⟩ => rfl
    | ⟨1, _⟩ => exact Nat.zero_add _))

theorem down_dot_lhs0 (j : S1024x2048.Idx) (c : dot_S1024x512_S2048x512_S1024x2048_1_1_0_0_n_n.contr.Idx) : (dot_S1024x512_S2048x512_S1024x2048_1_1_0_0_n_n.lhsIdx j c 0).val = (j 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem down_dot_lhs1 (j : S1024x2048.Idx) (c : dot_S1024x512_S2048x512_S1024x2048_1_1_0_0_n_n.contr.Idx) : (dot_S1024x512_S2048x512_S1024x2048_1_1_0_0_n_n.lhsIdx j c 1).val = (c ⟨0, by decide⟩).val :=
  dot_S1024x512_S2048x512_S1024x2048_1_1_0_0_n_n.lhsIdx_val_of_single rfl j c
theorem down_dot_rhs0 (j : S1024x2048.Idx) (c : dot_S1024x512_S2048x512_S1024x2048_1_1_0_0_n_n.contr.Idx) : (dot_S1024x512_S2048x512_S1024x2048_1_1_0_0_n_n.rhsIdx j c 0).val = (j 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem down_dot_rhs1 (j : S1024x2048.Idx) (c : dot_S1024x512_S2048x512_S1024x2048_1_1_0_0_n_n.contr.Idx) : (dot_S1024x512_S2048x512_S1024x2048_1_1_0_0_n_n.rhsIdx j c 1).val = (c ⟨0, by decide⟩).val :=
  dot_S1024x512_S2048x512_S1024x2048_1_1_0_0_n_n.rhsIdx_val_of_single rfl j c

/-- The product into the zero block, read at row p, column q: the sum over the contracted axis of
    the left operand's row p against the right operand's row q. -/
theorem down_dot (a : FVec Ideal S1024x512 .bf16) (w : FVec Ideal S2048x512 .bf16) (p : Fin 1024) (q : Fin 2048) :
    matmul dot_S1024x512_S2048x512_S1024x2048_1_1_0_0_n_n none a w (constant S1024x2048 .f32 0x00000000#32) (ix2 p q)
      = ∑ k : Fin 512, a (ix2 p k) * w (ix2 q k) := by
  refine (Ideal.matmul_constant_zero_apply dot_S1024x512_S2048x512_S1024x2048_1_1_0_0_n_n none a w (ix2 p q)).trans ?_
  rw [← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k :=
    funext fun c => Fin.ext (by
      match c with
      | ⟨0, _⟩ => exact down_dot_lhs0 _ _
      | ⟨1, _⟩ => exact (down_dot_lhs1 _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k :=
    funext fun c => Fin.ext (by
      match c with
      | ⟨0, _⟩ => exact down_dot_rhs0 _ _
      | ⟨1, _⟩ => exact (down_dot_rhs1 _ _).trans hk)
  rw [el, er]

/-- The zero block: a broadcast of the f32 zero word. -/
theorem zero_block (j : S1024x2048.Idx) : k1_pay1 (F := Ideal) j = 0 := by
  unfold k1_pay1
  exact Ideal.ofBits_zero_f32

/-- One step of the down projection: the accumulator block plus, at row p and column q, the product of row p
    of the hidden block with row q of the down weight block times its rank-4 scale. -/
theorem down_step (v3 : Vec Ideal S2048x4 .f32) (v4 : Vec Ideal S4x512 .f32) (v28 : Vec Ideal S2048x512 .f32)
    (v31 : Vec Ideal S1024x512 .bf16) (v34 : Vec Ideal S1024x2048 .f32) (p : Fin 1024) (q : Fin 2048) :
    k1_pay2 (F := Ideal) v3 v4 v28 v31 v34 (ix2 p q)
      = v34 (ix2 p q) + ∑ i : Fin 512, v31 (ix2 p i) * Cert.ScaledMlp.effW v28 v3 v4 q i := by
  unfold k1_pay2
  simp only [shapeCast_self]
  refine congrArg (v34 (ix2 p q) + ·) ?_
  refine (down_dot _ _ p q).trans ?_
  refine Finset.sum_congr rfl fun i _ => ?_
  refine congrArg (v31 (ix2 p i) * ·) ?_
  unfold Cert.ScaledMlp.effW Cert.ScaledMlp.scale4
  simp only [truncf_apply, mulf_apply, addf_apply,
    su_col_2048 _ 0 (by decide), su_col_2048 _ 1 (by decide), su_col_2048 _ 2 (by decide), su_col_2048 _ 3 (by decide),
    sv_row_512 _ 0 (by decide), sv_row_512 _ 1 (by decide), sv_row_512 _ 2 (by decide), sv_row_512 _ 3 (by decide)]
  rfl

end Cert.KernelIdeal.BlockValue

end
-- ==== Proof.HostSide.lean ====
/-
  The kernel program's buffer contents at the boundaries of its two regions, read back to the launch memory.

  Before the first region the host reshapes the [4, 256, 4096] input to 1024 rows and rounds it to bf16; on the
  extended reals the rounding is the identity, and the reshape reads row p at (p / 256, p % 256).  No host operation
  writes a weight or a scale, so each is still what the launch memory holds when a region reads it.  After the
  second region the host reshapes the 1024 result rows back: the entry (b, s, q) is row 256 * b + s, column q.
-/
import proofs.«112015_j57269093925327_2_alg».proof.Proof.Gen.KernelIdeal.Frame
import proofs.«112015_j57269093925327_2_alg».proof.Proof.Spec
import Idealize.ShloMosaic.Lib.Pipeline.Value
import Idealize.ShloMosaic.Lib.StableHlo.Run
import Idealize.ShloMosaic.Lib.ValueIdx

noncomputable section

namespace Cert.KernelIdeal.HostSide

open Cert.KernelIdeal Cert.KernelIdeal.Gen Cert.ScaledMlp Idealize.ShloMosaic Idealize.ShloMosaic.TcCoe Idealize.SL.Sem
  Idealize.ShloMosaic.ValueIdx Idealize.ShloMosaic.StableHlo

variable (m : (ℓ : Loc nD τ sig) → Buf (Elt Ideal) ℓ) (ρ : Dev nD → PrngReg)

/-! ## The weights and scales as the regions find them -/

/-- A buffer the first stretch of host operations does not write holds its launch contents after it. -/
theorem entry_of_not_written (c : Dev nD) (b : Ref sig .tc) (hb : b ≠ main_v0) (hb' : b ≠ main_v1) :
    W1 (F := Ideal) m ρ c (Proc.devRef .tc b) = W0 (F := Ideal) m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb, StableHlo.devRef_ne_of_ne hb'⟩))

theorem entry_arg1 (c : Dev nD) : V1 (F := Ideal) m ρ c main_arg1 = m ((c : Thread nD τ).loc main_arg1) :=
  entry_of_not_written m ρ c main_arg1 (by decide) (by decide)

theorem entry_arg2 (c : Dev nD) : V1 (F := Ideal) m ρ c main_arg2 = m ((c : Thread nD τ).loc main_arg2) :=
  entry_of_not_written m ρ c main_arg2 (by decide) (by decide)

theorem entry_arg3 (c : Dev nD) : V1 (F := Ideal) m ρ c main_arg3 = m ((c : Thread nD τ).loc main_arg3) :=
  entry_of_not_written m ρ c main_arg3 (by decide) (by decide)

theorem entry_arg4 (c : Dev nD) : V1 (F := Ideal) m ρ c main_arg4 = m ((c : Thread nD τ).loc main_arg4) :=
  entry_of_not_written m ρ c main_arg4 (by decide) (by decide)

theorem entry_arg5 (c : Dev nD) : V1 (F := Ideal) m ρ c main_arg5 = m ((c : Thread nD τ).loc main_arg5) :=
  entry_of_not_written m ρ c main_arg5 (by decide) (by decide)

theorem entry_arg6 (c : Dev nD) : V1 (F := Ideal) m ρ c main_arg6 = m ((c : Thread nD τ).loc main_arg6) :=
  entry_of_not_written m ρ c main_arg6 (by decide) (by decide)

theorem mid_arg7 (c : Dev nD) : V2 (F := Ideal) m ρ c main_arg7 = m ((c : Thread nD τ).loc main_arg7) :=
  (W2_of_ne m ρ c main_arg7 (by decide)).trans (entry_of_not_written m ρ c main_arg7 (by decide) (by decide))

theorem mid_arg8 (c : Dev nD) : V2 (F := Ideal) m ρ c main_arg8 = m ((c : Thread nD τ).loc main_arg8) :=
  (W2_of_ne m ρ c main_arg8 (by decide)).trans (entry_of_not_written m ρ c main_arg8 (by decide) (by decide))

theorem mid_arg9 (c : Dev nD) : V2 (F := Ideal) m ρ c main_arg9 = m ((c : Thread nD τ).loc main_arg9) :=
  (W2_of_ne m ρ c main_arg9 (by decide)).trans (entry_of_not_written m ρ c main_arg9 (by decide) (by decide))

/-! ## The arrays the regions leave -/

/-- The hidden activations the second region reads are what the first region's write-backs leave. -/
theorem mid_hidden (c : Dev nD) : V2 (F := Ideal) m ρ c main_v2 = (dat0 (V1 (F := Ideal) m ρ) c).arrAt 7 cfg0.N :=
  W2_arr m ρ c 7

/-- The result rows are what the second region's write-backs leave. -/
theorem exit_out (c : Dev nD) : W3 (F := Ideal) m ρ c (Proc.devRef .tc main_v3) = (dat1 (V2 (F := Ideal) m ρ) c).arrAt 4 cfg1.N :=
  W3_arr m ρ c 4

/-! ## The two reshapes -/

/-- After the first stretch of host operations the bf16 input rows are the [4, 256, 4096] input read as 1024 rows:
    the rounding is the identity on the extended reals and row p of the reshape is the input at (p / 256, p % 256). -/
theorem rows_of_input (G : Valuation τ sig (Elt Ideal)) (j : S1024x4096.Idx) :
    StableHlo.after hostOps0 G (Proc.devRef .tc main_v1) j = flat (G (Proc.devRef .tc main_arg0)) j := by
  have h0 : (j 0).val < 1024 := (j 0).isLt
  after_results
  refine (shapeCast_apply _ _ j (ix3 ⟨(j 0).val / 256, by omega⟩ ⟨(j 0).val % 256, Nat.mod_lt _ (by decide)⟩ (j 1)) ?_).trans rfl
  rw [Shape.rowMajor_val_two, Shape.rowMajor_val_three]
  show ((j 0).val / 256 * 256 + (j 0).val % 256) * 4096 + (j 1).val = (j 0).val * 4096 + (j 1).val
  omega

theorem entry_x (c : Dev nD) : V1 (F := Ideal) m ρ c main_v1 = flat (m ((c : Thread nD τ).loc main_arg0)) :=
  funext fun j => rows_of_input (W0 (F := Ideal) m ρ c) j

/-- After the last host operation the result at (b, s, q) is row 256 * b + s, column q of the result rows. -/
theorem result_of_rows (G : Valuation τ sig (Elt Ideal)) (b : Fin 4) (s : Fin 256) (q : Fin 4096) :
    StableHlo.after hostOps2 G (Proc.devRef .tc main_v4) (ix3 b s q) = G (Proc.devRef .tc main_v3) (ix2 (row b s) q) := by
  have hb := b.isLt; have hs := s.isLt
  after_results
  refine shapeCast_apply _ _ (ix3 b s q) (ix2 (row b s) q) ?_
  rw [Shape.rowMajor_val_two, Shape.rowMajor_val_three]
  show (256 * b.val + s.val) * 4096 + q.val = (b.val * 256 + s.val) * 4096 + q.val
  omega

theorem result_reshape (c : Dev nD) (b : Fin 4) (s : Fin 256) (q : Fin 4096) :
    W4 (F := Ideal) m ρ c (Proc.devRef .tc main_v4) (ix3 b s q) = W3 (F := Ideal) m ρ c (Proc.devRef .tc main_v3) (ix2 (row b s) q) :=
  result_of_rows (W3 (F := Ideal) m ρ c) b s q

end Cert.KernelIdeal.HostSide

end
-- ==== Proof.KernelValue.lean ====
/-
  The kernel program's result.  Walking the buffer contents back from the return: the result buffer is the reshape of the
  second region's output array; that array is the down projection of the hidden array and of the down weight and its two
  scale factors as the second region found them; the hidden array is what the first region left, the hidden activations
  of the input rows and of the gate and up weights and factors as the first region found them; the weights and factors
  are the launch arguments, untouched, and the input rows are the launch input read as 1024 rows.  Altogether the result
  is the specification's `mlp` of the ten arguments.
-/
import proofs.«112015_j57269093925327_2_alg».proof.Proof.KernelRun
import proofs.«112015_j57269093925327_2_alg».proof.Proof.GateUpArray
import proofs.«112015_j57269093925327_2_alg».proof.Proof.DownArray
import proofs.«112015_j57269093925327_2_alg».proof.Proof.BlockValues
import proofs.«112015_j57269093925327_2_alg».proof.Proof.HostSide

noncomputable section

namespace Cert.KernelIdeal.Result

open Cert.KernelIdeal Cert.KernelIdeal.Gen Cert.ScaledMlp
open Idealize.ShloMosaic Idealize.ShloMosaic.TcCoe Idealize.SL.Sem Idealize.ShloMosaic.ValueIdx

variable (m : (ℓ : Loc nD τ sig) → Buf (Elt Ideal) ℓ) (ρ : Dev nD → PrngReg)

theorem blockFact : GateUp.BlockFact := fun x0 x1 x2 x3 x4 x5 x6 p q => BlockValue.gateUp_block x0 x1 x2 x3 x4 x5 x6 p q
theorem stepFact : Down.StepFact := fun v3 v4 v28 v31 v34 p q => BlockValue.down_step v3 v4 v28 v31 v34 p q
theorem zeroFact : Down.ZeroFact := fun j => BlockValue.zero_block j

/-- The hidden array the second region finds: the hidden activations of the launch arguments. -/
theorem hidden_eq (c : Dev nD) :
    V2 m ρ c main_v2 = hiddenArr (flat (m ((c : Thread nD τ).loc main_arg0))) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  rw [HostSide.mid_hidden, GateUp.final (V1 m ρ) blockFact c]
  unfold GateUp.hiddenOf
  rw [HostSide.entry_x, HostSide.entry_arg1, HostSide.entry_arg2, HostSide.entry_arg3, HostSide.entry_arg4,
    HostSide.entry_arg5, HostSide.entry_arg6]

/-- The result buffer at the return is the specification of the ten launch arguments. -/
theorem result_eq (c : Dev nD) :
    W4 m ρ c (Proc.devRef .tc main_v4) = mlp (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  funext j
  obtain ⟨b, s, q, rfl⟩ : ∃ (b : Fin 4) (s : Fin 256) (q : Fin 4096), j = ix3 b s q := ⟨j 0, j 1, j 2, eq_ix3 j⟩
  rw [HostSide.result_reshape, HostSide.exit_out, Down.final (V2 m ρ) stepFact zeroFact c]
  show proj (V2 m ρ c main_v2) (V2 m ρ c main_arg7) (V2 m ρ c main_arg8) (V2 m ρ c main_arg9) (row b s) q = _
  rw [hidden_eq, HostSide.mid_arg7, HostSide.mid_arg8, HostSide.mid_arg9]
  rfl

/-- Every weakly fair execution of the kernel program terminates without a fault, with the result buffer at the
    specification of the arguments and the arguments as launched. -/
theorem run : θ_run defs (onTc (τ := τ) (main (F := Ideal))) ⟨m, fun _ => 0, ρ⟩ (fun r => ∀ c : Dev nD,
      r.2.mem ((c.tc : Thread nD τ).loc main_v4) = mlp (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (RunValue.run_result m ρ)

end Cert.KernelIdeal.Result

end
-- ==== Proof.lean ====
/-
  The certificate of the low-rank-scaled gated MLP kernel against its plain reference.

  Both programs compute, on the extended reals, down( silu(gate x) * up x ), each of the three linear layers with the
  effective weight w * (su · sv): the specification `Cert.ScaledMlp.mlp` (Proof/Spec.lean).  The kernel program does it in
  two pallas regions — the first forms the hidden activations one block of 256 units at a time, adding the four rank-1
  products of the scale one after the other; the second adds up the down projection over 28 blocks of 512 hidden units
  into an output block that stays in place, started from zero — after flattening the input to 1024 rows, and reshapes
  the result back.  The reference does it with whole-array contractions.  The two agree because a finite sum on the
  extended reals does not depend on how it is grouped or ordered (addition there is commutative and associative); no
  finiteness of the inputs is used.

  Modules: Spec (the mathematics), SpecBlocks (blocks against whole arrays), RefIsSpec (the reference's result is the
  specification), BlockValues (each kernel body on one block, at an index), DownBody (the second body's two cases),
  GateUpArray and DownArray (from blocks to the two regions' arrays), HostSide (the contents at the region boundaries),
  KernelRun (the kernel program's run with its result named), KernelValue (the kernel's result is the specification).
  The three frame claims are the generated frames and the reference's generated run; the idealization rewrote nothing.
-/
import proofs.«112015_j57269093925327_2_alg».proof.Defs
import proofs.«112015_j57269093925327_2_alg».proof.Proof.Gen.Kernel
import proofs.«112015_j57269093925327_2_alg».proof.Proof.Gen.Kernel.Frame
import proofs.«112015_j57269093925327_2_alg».proof.Proof.Gen.KernelIdeal
import proofs.«112015_j57269093925327_2_alg».proof.Proof.Gen.KernelIdeal.Frame
import proofs.«112015_j57269093925327_2_alg».proof.Proof.Gen.ReferenceIdeal
import proofs.«112015_j57269093925327_2_alg».proof.Proof.Gen.Pre_finite_inputs
import proofs.«112015_j57269093925327_2_alg».proof.Proof.Gen.ReferenceIdeal.Run
import proofs.«112015_j57269093925327_2_alg».proof.Proof.Gen.ReferenceIdeal.Read
import proofs.«112015_j57269093925327_2_alg».proof.Proof.RefIsSpec
import proofs.«112015_j57269093925327_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference's frame: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the specification of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v10_eq, Cert.ReferenceIdeal.RefValue.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
